-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x32 : Shape := ⟨3, ![2, 8192, 32]⟩
abbrev S8192x8192 : Shape := ⟨2, ![8192, 8192]⟩
abbrev S96x32 : Shape := ⟨2, ![96, 32]⟩
abbrev S32 : Shape := ⟨1, ![32]⟩
abbrev S_ : Shape := ⟨0, ![]⟩

class Facts : Prop where
  bcast_S_S2x8192x32 : S_.BroadcastsInDim S2x8192x32 (![] : Fin 0 → Fin S2x8192x32.rank)
  reducesTo_S2x8192x32_S_d0_1_2 : S2x8192x32.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S2x8192x32 .f32) (main_arg1 : FVec F S8192x8192 .f32) (main_arg2 : FVec F S96x32 .f32) (main_arg3 : FVec F S32 .f32) : IVec S_ 1 :=
  let main_v0 : FVec F S2x8192x32 .f32 := Host.absf main_arg0
  let main_cst : FVec F S_ .f32 := constant S_ .f32 0x7F800000#32
  let main_v1 : FVec F S2x8192x32 .f32 := broadcastInDim S2x8192x32 ![] bcast_S_S2x8192x32 main_cst
  let main_v2 : IVec S2x8192x32 1 := cmpf .olt main_v0 main_v1
  let main_c : IVec S_ 1 := constantI S_ 1 1#1
  let main_v3 : IVec S_ 1 := (fun x v => Host.reduce IntOp.andi x v reducesTo_S2x8192x32_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S96x32 .f32 := Host.absf main_arg2
  let main_cst_2 : FVec F S_ .f32 := constant S_ .f32 0x7F800000#32
  let main_v10 : FVec F S96x32 .f32 := broadcastInDim S96x32 ![] bcast_S_S96x32 main_cst_2
  let main_v11 : IVec S96x32 1 := cmpf .olt main_v9 main_v10
  let main_c_3 : IVec S_ 1 := constantI S_ 1 1#1
  let main_v12 : IVec S_ 1 := (fun x v => Host.reduce IntOp.andi x v reducesTo_S96x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S2x8192x32 : Shape := ⟨3, ![2, 8192, 32]⟩
abbrev S8192x8192 : Shape := ⟨2, ![8192, 8192]⟩
abbrev S96x32 : Shape := ⟨2, ![96, 32]⟩
abbrev S32 : Shape := ⟨1, ![32]⟩
abbrev S8192x2x32 : Shape := ⟨3, ![8192, 2, 32]⟩
abbrev S8192x64 : Shape := ⟨2, ![8192, 64]⟩
abbrev S32x3x32 : Shape := ⟨3, ![32, 3, 32]⟩
abbrev S2x2 : Shape := ⟨2, ![2, 2]⟩
abbrev S_ : Shape := ⟨0, ![]⟩
abbrev S32x1x32 : Shape := ⟨3, ![32, 1, 32]⟩
abbrev S32x32 : Shape := ⟨2, ![32, 32]⟩
abbrev S2x1x2x1 : Shape := ⟨4, ![2, 1, 2, 1]⟩
abbrev S1x32x1x32 : Shape := ⟨4, ![1, 32, 1, 32]⟩
abbrev S2x32x2x32 : Shape := ⟨4, ![2, 32, 2, 32]⟩
abbrev S64x64 : Shape := ⟨2, ![64, 64]⟩
abbrev S1x32 : Shape := ⟨2, ![1, 32]⟩
abbrev S2x32 : Shape := ⟨2, ![2, 32]⟩
abbrev S64 : Shape := ⟨1, ![64]⟩
abbrev S1x64 : Shape := ⟨2, ![1, 64]⟩
abbrev S256x8192 : Shape := ⟨2, ![256, 8192]⟩
abbrev S256x64 : Shape := ⟨2, ![256, 64]⟩

abbrev nBuf : Space → Nat
  | .hbm => 51
  | .vmem => 18
  | .smem => 0
  | _ => 0

abbrev bufTy : (tb : Table) → Fin (tcTables nBuf tb) → BufTy
  | .hbm, ⟨0, _⟩ => ⟨S2x8192x32, .f32⟩
  | .hbm, ⟨1, _⟩ => ⟨S8192x8192, .f32⟩
  | .hbm, ⟨2, _⟩ => ⟨S96x32, .f32⟩
  | .hbm, ⟨3, _⟩ => ⟨S32, .f32⟩
  | .hbm, ⟨4, _⟩ => ⟨S8192x2x32, .f32⟩
  | .hbm, ⟨5, _⟩ => ⟨S8192x64, .f32⟩
  | .hbm, ⟨6, _⟩ => ⟨S8192x64, .bf16⟩
  | .hbm, ⟨7, _⟩ => ⟨S32x3x32, .f32⟩
  | .hbm, ⟨8, _⟩ => ⟨S2x2, .i32⟩
  | .hbm, ⟨9, _⟩ => ⟨S2x2, .i32⟩
  | .hbm, ⟨10, _⟩ => ⟨S_, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x2, .f32⟩
  | .hbm, ⟨15, _⟩ => ⟨S32x1x32, .f32⟩
  | .hbm, ⟨16, _⟩ => ⟨S32x32, .f32⟩
  | .hbm, ⟨17, _⟩ => ⟨S2x1x2x1, .f32⟩
  | .hbm, ⟨18, _⟩ => ⟨S1x32x1x32, .f32⟩
  | .hbm, ⟨19, _⟩ => ⟨S2x32x2x32, .f32⟩
  | .hbm, ⟨20, _⟩ => ⟨S2x32x2x32, .f32⟩
  | .hbm, ⟨21, _⟩ => ⟨S2x32x2x32, .f32⟩
  | .hbm, ⟨22, _⟩ => ⟨S64x64, .f32⟩
  | .hbm, ⟨23, _⟩ => ⟨S32x1x32, .f32⟩
  | .hbm, ⟨24, _⟩ => ⟨S32x32, .f32⟩
  | .hbm, ⟨25, _⟩ => ⟨S2x1x2x1, .f32⟩
  | .hbm, ⟨26, _⟩ => ⟨S1x32x1x32, .f32⟩
  | .hbm, ⟨27, _⟩ => ⟨S2x32x2x32, .f32⟩
  | .hbm, ⟨28, _⟩ => ⟨S2x32x2x32, .f32⟩
  | .hbm, ⟨29, _⟩ => ⟨S2x32x2x32, .f32⟩
  | .hbm, ⟨30, _⟩ => ⟨S64x64, .f32⟩
  | .hbm, ⟨31, _⟩ => ⟨S32x1x32, .f32⟩
  | .hbm, ⟨32, _⟩ => ⟨S32x32, .f32⟩
  | .hbm, ⟨33, _⟩ => ⟨S2x1x2x1, .f32⟩
  | .hbm, ⟨34, _⟩ => ⟨S1x32x1x32, .f32⟩
  | .hbm, ⟨35, _⟩ => ⟨S2x32x2x32, .f32⟩
  | .hbm, ⟨36, _⟩ => ⟨S2x32x2x32, .f32⟩
  | .hbm, ⟨37, _⟩ => ⟨S2x32x2x32, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S1x32, .f32⟩
  | .hbm, ⟨44, _⟩ => ⟨S2x32, .f32⟩
  | .hbm, ⟨45, _⟩ => ⟨S64, .f32⟩
  | .hbm, ⟨46, _⟩ => ⟨S1x64, .f32⟩
  | .hbm, ⟨47, _⟩ => ⟨S8192x64, .f32⟩
  | .hbm, ⟨48, _⟩ => ⟨S8192x64, .f32⟩
  | .hbm, ⟨49, _⟩ => ⟨S8192x2x32, .f32⟩
  | .hbm, ⟨50, _⟩ => ⟨S2x8192x32, .f32⟩
  | .local _ .vmem, ⟨0, _⟩ => ⟨S256x8192, .f32⟩
  | .local _ .vmem, ⟨1, _⟩ => ⟨S256x8192, .f32⟩
  | .local _ .vmem, ⟨2, _⟩ => ⟨S8192x64, .bf16⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S8192x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S256x64, .f32⟩
  | .local _ .vmem, ⟨17, _⟩ => ⟨S256x64, .f32⟩
  | _, _ => ⟨S2x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S2x8192x32_S8192x2x32_1_0_2 : S2x8192x32.Transposes [1, 0, 2] S8192x2x32
  shapeCasts_S8192x2x32_S8192x64 : S8192x2x32.ShapeCasts S8192x64
  bitsLt_bf16_f32 : FTy.bits .bf16 < FTy.bits .f32
  shapeCasts_S96x32_S32x3x32 : S96x32.ShapeCasts S32x3x32
  bcast_S_S2x2 : S_.BroadcastsInDim S2x2 (![] : Fin 0 → Fin S2x2.rank)
  slices_S32x3x32_S32x1x32_0_0_0 : S32x3x32.Slices ![0, 0, 0] S32x1x32
  shapeCasts_S32x1x32_S32x32 : S32x1x32.ShapeCasts S32x32
  bcast_S2x2_S2x1x2x1_0_2 : S2x2.BroadcastsInDim S2x1x2x1 (![0, 2] : Fin 2 → Fin S2x1x2x1.rank)
  bcast_S32x32_S1x32x1x32_1_3 : S32x32.BroadcastsInDim S1x32x1x32 (![1, 3] : Fin 2 → Fin S1x32x1x32.rank)
  bcast_S2x1x2x1_S2x32x2x32_0_1_2_3 : S2x1x2x1.BroadcastsInDim S2x32x2x32 (![0, 1, 2, 3] : Fin 4 → Fin S2x32x2x32.rank)
  bcast_S1x32x1x32_S2x32x2x32_0_1_2_3 : S1x32x1x32.BroadcastsInDim S2x32x2x32 (![0, 1, 2, 3] : Fin 4 → Fin S2x32x2x32.rank)
  shapeCasts_S2x32x2x32_S64x64 : S2x32x2x32.ShapeCasts S64x64
  slices_S32x3x32_S32x1x32_0_1_0 : S32x3x32.Slices ![0, 1, 0] S32x1x32
  slices_S32x3x32_S32x1x32_0_2_0 : S32x3x32.Slices ![0, 2, 0] S32x1x32
  bcast_S_S64x64 : S_.BroadcastsInDim S64x64 (![] : Fin 0 → Fin S64x64.rank)
  shapeCasts_S32_S1x32 : S32.ShapeCasts S1x32
  bcast_S1x32_S2x32_0_1 : S1x32.BroadcastsInDim S2x32 (![0, 1] : Fin 2 → Fin S2x32.rank)
  shapeCasts_S2x32_S64 : S2x32.ShapeCasts S64
  shapeCasts_S64_S1x64 : S64.ShapeCasts S1x64
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  shapeCasts_S8192x64_S8192x2x32 : S8192x64.ShapeCasts S8192x2x32
  transposes_S8192x2x32_S2x8192x32_1_0_2 : S8192x2x32.Transposes [1, 0, 2] S2x8192x32
  dot_S256x8192_S8192x64_S256x64_1_0_0_1_n_n_wf : DotDims.WF S256x8192 S8192x64 S256x64 [1] [0] [0] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S8192x64.size a
  hwx1_2 : ∀ i : grid1.Coords, EltTy.bits .f32 = 32 ∨ (Rect.block (s := S8192x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x64.size a ≤ S8192x64.size a
  hwx1_8 : ∀ i : grid1.Coords, EltTy.bits .f32 = 32 ∨ (Rect.block (s := S8192x64) S256x64.size (cc1_transform_8 i) (hinb1_8 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S256x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2x8192x32 : Shape := ⟨3, ![2, 8192, 32]⟩
abbrev S8192x8192 : Shape := ⟨2, ![8192, 8192]⟩
abbrev S96x32 : Shape := ⟨2, ![96, 32]⟩
abbrev S32 : Shape := ⟨1, ![32]⟩
abbrev S8192x32x2 : Shape := ⟨3, ![8192, 32, 2]⟩
abbrev S8192x64 : Shape := ⟨2, ![8192, 64]⟩
abbrev S_ : Shape := ⟨0, ![]⟩
abbrev S1x8192x64 : Shape := ⟨3, ![1, 8192, 64]⟩
abbrev S3x8192x64 : Shape := ⟨3, ![3, 8192, 64]⟩
abbrev S3x8192x32x2 : Shape := ⟨4, ![3, 8192, 32, 2]⟩
abbrev S2x8192x32x3 : Shape := ⟨4, ![2, 8192, 32, 3]⟩
abbrev S16384x96 : Shape := ⟨2, ![16384, 96]⟩
abbrev S16384x32 : Shape := ⟨2, ![16384, 32]⟩
abbrev S1x32 : Shape := ⟨2, ![1, 32]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x32, .f32⟩
  | .hbm, ⟨1, _⟩ => ⟨S8192x8192, .f32⟩
  | .hbm, ⟨2, _⟩ => ⟨S96x32, .f32⟩
  | .hbm, ⟨3, _⟩ => ⟨S32, .f32⟩
  | .hbm, ⟨4, _⟩ => ⟨S8192x32x2, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S1x8192x64, .f32⟩
  | .hbm, ⟨13, _⟩ => ⟨S1x8192x64, .f32⟩
  | .hbm, ⟨14, _⟩ => ⟨S1x8192x64, .f32⟩
  | .hbm, ⟨15, _⟩ => ⟨S3x8192x64, .f32⟩
  | .hbm, ⟨16, _⟩ => ⟨S3x8192x32x2, .f32⟩
  | .hbm, ⟨17, _⟩ => ⟨S2x8192x32x3, .f32⟩
  | .hbm, ⟨18, _⟩ => ⟨S16384x96, .f32⟩
  | .hbm, ⟨19, _⟩ => ⟨S16384x32, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S2x8192x32, .f32⟩
  | _, _ => ⟨S2x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S2x8192x32_S8192x32x2_1_2_0 : S2x8192x32.Transposes [1, 2, 0] S8192x32x2
  shapeCasts_S8192x32x2_S8192x64 : S8192x32x2.ShapeCasts S8192x64
  bcast_S_S8192x64 : S_.BroadcastsInDim S8192x64 (![] : Fin 0 → Fin S8192x64.rank)
  bcast_S8192x64_S1x8192x64_1_2 : S8192x64.BroadcastsInDim S1x8192x64 (![1, 2] : Fin 2 → Fin S1x8192x64.rank)
  concatenates_S1x8192x64_S1x8192x64_S1x8192x64_S3x8192x64_d0 : Shape.Concatenates [S1x8192x64, S1x8192x64, S1x8192x64] S3x8192x64 0
  shapeCasts_S3x8192x64_S3x8192x32x2 : S3x8192x64.ShapeCasts S3x8192x32x2
  transposes_S3x8192x32x2_S2x8192x32x3_3_1_2_0 : S3x8192x32x2.Transposes [3, 1, 2, 0] S2x8192x32x3
  shapeCasts_S2x8192x32x3_S16384x96 : S2x8192x32x3.ShapeCasts S16384x96
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S16384x32_S2x8192x32 : S16384x32.ShapeCasts S2x8192x32
  dot_S8192x8192_S8192x64_S8192x64_1_0_0_1_n_n_wf : DotDims.WF S8192x8192 S8192x64 S8192x64 [1] [0] [0] [1] [] []
  dot_S16384x96_S96x32_S16384x32_1_0_0_1_n_n_wf : DotDims.WF S16384x96 S96x32 S16384x32 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

class Facts : Prop extends Facts₀ where

variable [Facts]
-- ==== Proof.BRegion0.lean ====
/-
  Pass 1 of the Chebyshev kernel as a pipeline of 32 grid points, at any float instance: what each window's staging
  buffer holds around the body. Point `t` is handed rows 256·t … 256·t+255 of the operator `L` (window 0) and the whole
  batch-major signal matrix (window 1), and leaves in the output window's buffer the product of the two — one whole-block
  store. The body reads nothing else and keeps nothing between points, so the pipeline's invariant is only the scoped
  buffers it does not stage and the generator register.
-/
import proofs.«165797_g43559558316210_cont_sun_m_1389_5_alg».proof.Proof.Gen.Kernel.Launch
import proofs.«165797_g43559558316210_cont_sun_m_1389_5_alg».proof.Proof.Gen.Kernel.Skeleton
import proofs.«165797_g43559558316210_cont_sun_m_1389_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when pass 1 is entered
variable (V : (c : Dev nD) → (b : Ref sig .tc) → Buf (Elt F) ((c : Thread nD τ).loc b))

/-- Window `w`'s block at point `t`, read off its array as pass 1 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `L` is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The signal matrix, fetched at the first point only, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body touches. -/
abbrev rL0 : Rect S256x8192 := Rect.unit (s := S256x8192) ![0, 0] S256x8192.size inb_S256x8192_S256x8192_0_0
abbrev rX0 : Rect S8192x64 := Rect.unit (s := S8192x64) ![0, 0] S8192x64.size inb_S8192x64_S8192x64_0_0
abbrev rO0 : Rect S256x64 := Rect.unit (s := S256x64) ![0, 0] S256x64.size inb_S256x64_S256x64_0_0

/-- What the body leaves in the output window's buffer: its one store, of the product of the two loaded blocks. -/
def out0_2 (x0 : Vec F S256x8192 .f32) (x1 : Vec F S8192x64 .bf16) : Vec F S256x64 .f32 :=
  View.canon [⟨rO0, k0_pay1 (View.ld x0 rL0) (View.ld x1 rX0)⟩]

/-- The one store covers the buffer. -/
theorem cover0_2 (p0 : Vec F S256x64 .f32) (y : S256x64.Idx) :
    ∃ pc ∈ ([⟨rO0, p0⟩] : List (View.Piece (Elt F) S256x64 .f32)), y ∈ pc.1.set :=
  View.cover_of_tiled [⟨rO0, p0⟩] S256x64.size (by rfl) y

set_option maxHeartbeats 1000000 in
/-- The body on whole staging buffers: the two inputs are left as found, the output's buffer ends at `out0_2` of them. -/
theorem sound_kernel0 (c : Dev nD) (E : Set ℕ) (i : grid0.Coords)
    (arg1 : Memref sig .tc .vmem S256x8192 .f32) (harg1 : arg1.IsWhole) (arg2 : Memref sig .tc .vmem S8192x64 .bf16) (harg2 : arg2.IsWhole)
    (arg3 : Memref sig .tc .vmem S256x64 .f32) (harg3 : arg3.IsWhole)
    (x0 : Vec F S256x8192 .f32) (x1 : Vec F S8192x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__pass1_kernel i arg1 harg1 arg2 harg2 arg3 harg3) K := by
  simp only [cc0__pass1_kernel_eq_skeleton]; unfold cc0__pass1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Pass 1's proof data on core `c`: the arrays as found; each input's buffer keeps its block, the output's holds the product;
    nothing owed, every array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Pass

end
-- ==== Proof.BRegion1.lean ====
/-
  Pass 2 of the Chebyshev kernel as a pipeline of 32 grid points, at any float instance. Point `t` is handed rows
  256·t … 256·t+255 of the operator `L` (window 0), the WHOLE first-order matrix `L·x` (window 1), the same rows of the signal
  matrix (window 2) and of `L·x` (window 3), the three combined weights (windows 4–6) and the bias row (window 7), and leaves in
  the output window's buffer one whole-block store of
      x·W_A + (L·x)·W_B + (L·(L·x))·W_C + bias.
  Windows 1 and 3 read ONE array: the core holds it in two halves of the full share, one per window — both only read it.
-/
import proofs.«165797_g43559558316210_cont_sun_m_1389_5_alg».proof.Proof.Gen.Kernel.Launch
import proofs.«165797_g43559558316210_cont_sun_m_1389_5_alg».proof.Proof.Gen.Kernel.Skeleton
import proofs.«165797_g43559558316210_cont_sun_m_1389_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when pass 2 is entered
variable (V : (c : Dev nD) → (b : Ref sig .tc) → Buf (Elt F) ((c : Thread nD τ).loc b))

/-- Window `w`'s block at point `t`, read off its array as pass 2 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `L` is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole first-order matrix `L·x`, fetched at the first point only, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the signal matrix is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row block of the first-order matrix is in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first combined weight, fetched once, stays in its staging buffer. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The second combined weight, fetched once, stays in its staging buffer. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The third combined weight, fetched once, stays in its staging buffer. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, stays in its staging buffer. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body touches. -/
abbrev rL1 : Rect S256x8192 := Rect.unit (s := S256x8192) ![0, 0] S256x8192.size inb_S256x8192_S256x8192_0_0
abbrev rX1 : Rect S8192x64 := Rect.unit (s := S8192x64) ![0, 0] S8192x64.size inb_S8192x64_S8192x64_0_0
abbrev rO1 : Rect S256x64 := Rect.unit (s := S256x64) ![0, 0] S256x64.size inb_S256x64_S256x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output window's buffer: its one store, of the combined value of the eight loaded blocks
    (in the windows' order: L rows, whole L·x, x rows, L·x rows, W_A, W_B, W_C, bias row). -/
def out1_8 (x0 : Vec F S256x8192 .f32) (x1 : Vec F S8192x64 .f32) (x2 : Vec F S256x64 .f32) (x3 : Vec F S256x64 .f32)
    (x4 : Vec F S64x64 .f32) (x5 : Vec F S64x64 .f32) (x6 : Vec F S64x64 .f32) (x7 : Vec F S1x64 .f32) : Vec F S256x64 .f32 :=
  View.canon [⟨rO1, k1_pay1 (View.ld x0 rL1) (View.ld x1 rX1) (View.ld x2 rO1) (View.ld x4 rW1) (View.ld x3 rO1) (View.ld x5 rW1) (View.ld x6 rW1) (View.ld x7 rB1)⟩]

/-- The one store covers the buffer. -/
theorem cover1_8 (p0 : Vec F S256x64 .f32) (y : S256x64.Idx) :
    ∃ pc ∈ ([⟨rO1, p0⟩] : List (View.Piece (Elt F) S256x64 .f32)), y ∈ pc.1.set :=
  View.cover_of_tiled [⟨rO1, p0⟩] S256x64.size (by rfl) y

set_option maxHeartbeats 2000000 in
/-- The body on whole staging buffers: the eight inputs are left as found, the output's buffer ends at `out1_8` of them. -/
theorem sound_kernel1 (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S256x64 .f32) (harg9 : arg9.IsWhole)
    (x0 : Vec F S256x8192 .f32) (x1 : Vec F S8192x64 .f32) (x2 : Vec F S256x64 .f32) (x3 : Vec F S256x64 .f32)
    (x4 : Vec F S64x64 .f32) (x5 : Vec F S64x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- Pass 2's proof data on core `c`: the arrays as found; each input's buffer keeps its block, the output's holds the combined
    value; nothing owed; every array at the full share but the one two windows read, held in halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨1, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Pass

end
-- ==== Proof.BShare.lean ====
/-
  Pass 2 reads the first-order matrix `L·x` through two windows. The core holds that array once, at the full share; the
  pipeline wants one points-to per window. So at entry the full share is cut into its left and right halves, one per
  reading window, and at exit — both windows only read, so both halves still hold the entry contents — the halves are
  joined again. Every other array of pass 2 belongs to one window and is held whole.
-/
import proofs.«165797_g43559558316210_cont_sun_m_1389_5_alg».proof.Proof.BRegion1

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight distinct buffers behind pass 2's nine windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v26) ↦{fullShare} V main_v26) ∗ (((c : Thread nD τ).loc main_v1) ↦{fullShare} V main_v1) ∗ (((c : Thread nD τ).loc main_v19) ↦{fullShare} V main_v19) ∗ (((c : Thread nD τ).loc main_v15) ↦{fullShare} V main_v15) ∗ (((c : Thread nD τ).loc main_v21) ↦{fullShare} V main_v21) ∗ (((c : Thread nD τ).loc main_v25) ↦{fullShare} V main_v25) ∗ (((c : Thread nD τ).loc main_v27) ↦{fullShare} V main_v27)) :=
  bigSep_eq_bigSepL_of_eq [main_arg1, main_v26, main_v1, main_v19, main_v15, main_v21, main_v25, main_v27] (by decide) (by decide) _

variable (V : (c : Dev nD) → (b : Ref sig .tc) → Buf (Elt F) ((c : Thread nD τ).loc b))

/-- ENTRY: the eight distinct buffers behind pass 2's nine windows, each whole at the full share, are its arrays — the
    array two windows read cut into the two halves of its share. -/
theorem arrays_of_arrBufs1 (c : Dev nD) (Fa : (w : Fin cfg1.W) → Buf (Elt F) ((cfg1.win w).arr.view.loc (c.tc : Thread nD τ)))
    (hF : ∀ w, Fa w = V c (Pipeline.arrRef spec1 w)) :
    (Pipeline.arrBufs (Ix := Unit) (Name := ℕ) (U := UR sig nD τ) (Lvl := ℕ) spec1 c (V c) : sProp 𝕄) ⊢ (dat1 V c).arrays Fa := by
  rw [arrBufs1_eq]
  unfold Pipeline.Dat.arrays
  rw [bigSep_W1]
  simp only [hF, View.set_whole]
  iintro ⟨HL, H26, H1, H19, H15, H21, H25, H27⟩
  ihave Hh := (pointsTo_share (PosShare.mem_left_op_right fullShare)).1 $$ H26
  icases Hh with ⟨Ha, Hb⟩
  isplitl [HL]; · iexact HL
  isplitl [Ha]; · iexact Ha
  isplitl [H1]; · iexact H1
  isplitl [Hb]; · iexact Hb
  isplitl [H19]; · iexact H19
  isplitl [H15]; · iexact H15
  isplitl [H21]; · iexact H21
  isplitl [H25]; · iexact H25
  iexact H27

/-- EXIT: pass 2's arrays — every input array still at its entry contents, the two halves of the twice-read one among
    them, the output array at what the pipeline left — are the eight distinct buffers whole at the full share, at any
    contents `V'` that name what each window's array holds. -/
theorem arrBufs_of_arrays1 (c : Dev nD) (Fa : (w : Fin cfg1.W) → Buf (Elt F) ((cfg1.win w).arr.view.loc (c.tc : Thread nD τ)))
    (V' : (b : Ref sig .tc) → Buf (Elt F) ((c : Thread nD τ).loc b))
    (hF : ∀ w, Fa w = V' (Pipeline.arrRef spec1 w)) :
    (dat1 V c).arrays Fa ⊢ (Pipeline.arrBufs (Ix := Unit) (Name := ℕ) (U := UR sig nD τ) (Lvl := ℕ) spec1 c V' : sProp 𝕄) := by
  rw [arrBufs1_eq]
  unfold Pipeline.Dat.arrays
  rw [bigSep_W1]
  simp only [hF, View.set_whole]
  iintro ⟨HL, Ha, H1, Hb, H19, H15, H21, H25, H27⟩
  ihave H26 := (pointsTo_share (PosShare.mem_left_op_right fullShare)).2 $$ [Ha Hb]
  · isplitl [Ha]; · iexact Ha
    iexact Hb
  isplitl [HL]; · iexact HL
  isplitl [H26]; · iexact H26
  isplitl [H1]; · iexact H1
  isplitl [H19]; · iexact H19
  isplitl [H15]; · iexact H15
  isplitl [H21]; · iexact H21
  isplitl [H25]; · iexact H25
  iexact H27

end Cert.Kernel.Pass

end
-- ==== Proof.BRun.lean ====
/-
  The whole run of the Chebyshev kernel's @main, at any float instance: seven stretches of host operations (the two
  re-layouts of the signal, the block-diagonal weights, the bias row), pass 1, pass 2, and the host's final re-layout.
  Between two items every unscoped buffer of the core is held at a named valuation: the launch memory folded through the
  host stretches (`V0` … `V7`), then with pass 1's output array at what its 32 write-backs leave (`W8`), then with pass 2's
  (`W9`), then through the final stretch (`W10`). Each pass takes its arrays out of that valuation at entry and puts them
  back at exit; pass 2 reads one array through two windows and holds it in two halves meanwhile. The conclusion: every
  weakly fair execution terminates without fault, and the final memory holds `W10` at every unscoped buffer — so the
  arguments are unchanged and the result is the fold's value.
-/
import proofs.«165797_g43559558316210_cont_sun_m_1389_5_alg».proof.Proof.BRegion0
import proofs.«165797_g43559558316210_cont_sun_m_1389_5_alg».proof.Proof.BRegion1
import proofs.«165797_g43559558316210_cont_sun_m_1389_5_alg».proof.Proof.BShare
import proofs.«165797_g43559558316210_cont_sun_m_1389_5_alg».proof.Proof.Gen.Kernel.Regions

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At pass 1's entry: the launch memory after the seven host stretches. -/
abbrev W7 : Dev nD → Valuation τ sig (Elt F) := fun c => V7 m c
/-- The same read at the TensorCore's references (what pass 1's proof data take). -/
abbrev E7 : (c : Dev nD) → (b : Ref sig .tc) → Buf (Elt F) ((c : Thread nD τ).loc b) := fun c b => W7 m c b

/-- At pass 1's exit: its arrays at what the pipeline leaves, every other buffer as entered. -/
def W8 (c : Dev nD) : Valuation τ sig (Elt F) :=
  Pipeline.withArrays spec0 c (W7 m c) fun w => (dat0 (E7 m) c).arrAt w cfg0.N
theorem W8_arr (c : Dev nD) (w : Fin cfg0.W) :
    W8 m c (Proc.devRef .tc (Pipeline.arrRef spec0 w)) = (dat0 (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
/-- The same read at the TensorCore's references (pass 2's entry contents). -/
abbrev E8 : (c : Dev nD) → (b : Ref sig .tc) → Buf (Elt F) ((c : Thread nD τ).loc b) := fun c b => W8 m c b
theorem hF0 (c : Dev nD) (w : Fin cfg0.W) : (dat0 (E7 m) c).arrAt w cfg0.N = E8 m c (Pipeline.arrRef spec0 w) :=
  (W8_arr m c w).symm
theorem hrest0 (c : Dev nD) : ∀ b, b ∉ Finset.univ.image (Pipeline.arrRef spec0) → E8 m c b = E7 m c b :=
  fun b hb => W8_of_ne m c b fun w e => hb (Finset.mem_image.mpr ⟨w, Finset.mem_univ _, e⟩)

/-- At pass 2's exit: its output array at what the pipeline leaves, every other buffer as entered (its input arrays
    are only read). -/
def W9 (c : Dev nD) : Valuation τ sig (Elt F) :=
  Function.update (W8 m c) (Proc.devRef .tc main_v27) ((dat1 (E8 m) c).arrAt 8 cfg1.N : Buf (Elt F) ((c : Thread nD τ).loc main_v27))
abbrev E9 : (c : Dev nD) → (b : Ref sig .tc) → Buf (Elt F) ((c : Thread nD τ).loc b) := fun c b => W9 m c b
theorem W9_out (c : Dev nD) : W9 m c (Proc.devRef .tc main_v27) = (dat1 (E8 m) c).arrAt 8 cfg1.N := by
  unfold W9; exact Function.update_self ..
theorem W9_of_ne (c : Dev nD) (b : Ref sig .tc) (hb : b ≠ main_v27) : W9 m c (Proc.devRef .tc b) = W8 m c (Proc.devRef .tc b) := by
  unfold W9; exact Function.update_of_ne (StableHlo.devRef_ne_of_ne hb) _ _
/-- An input array of pass 2 ends as entered. -/
theorem hF1_in (c : Dev nD) (w : Fin cfg1.W) (hin : (cfg1.win w).isOut = false) (hne : Pipeline.arrRef spec1 w ≠ main_v27) :
    (dat1 (E8 m) c).arrAt w cfg1.N = E9 m c (Pipeline.arrRef spec1 w) :=
  (((dat1 (E8 m) c).arrAt_in w hin _).trans (A_eq1 (E8 m) c w)).trans (W9_of_ne m c _ hne).symm
theorem hF1 (c : Dev nD) : ∀ w : Fin cfg1.W, (dat1 (E8 m) c).arrAt w cfg1.N = E9 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => (W9_out m c).symm
theorem hrest1 (c : Dev nD) : ∀ b, b ∉ Finset.univ.image (Pipeline.arrRef spec1) → E9 m c b = E8 m c b :=
  fun b hb => W9_of_ne m c b fun e => hb (Finset.mem_image.mpr ⟨8, Finset.mem_univ _, e.symm⟩)

/-- At the return: after the host's final re-layout. -/
abbrev W10 : Dev nD → Valuation τ sig (Elt F) := fun c => StableHlo.after hostOps2 (W9 m c)

/-! ### The arguments end as launched: no host operation writes one, and a pass only reads them -/

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps2 _ hostOps2_writes (r := main_arg0) (by decide)
    _ = W8 m c (Proc.devRef .tc main_arg0) := Function.update_of_ne (StableHlo.devRef_ne_of_ne (by decide)) _ _
    _ = W7 m c (Proc.devRef .tc main_arg0) := W8_of_ne m c main_arg0 (by decide)
    _ = m ((c : Thread nD τ).loc main_arg0) :=
      (V7_of m c main_arg0 (by decide)).trans <| (V6_of m c main_arg0 (by decide)).trans <| (V5_of m c main_arg0 (by decide)).trans <| (V4_of m c main_arg0 (by decide)).trans <|
        (V3_of m c main_arg0 (by decide)).trans <| (V2_of m c main_arg0 (by decide)).trans <| (V1_of m c main_arg0 (by decide)).trans rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps2 _ hostOps2_writes (r := main_arg1) (by decide)
    _ = W8 m c (Proc.devRef .tc main_arg1) := Function.update_of_ne (StableHlo.devRef_ne_of_ne (by decide)) _ _
    _ = W7 m c (Proc.devRef .tc main_arg1) := (W8_arr m c 0).trans (((dat0 (E7 m) c).arrAt_in 0 rfl _).trans (A_eq0 (E7 m) c 0))
    _ = m ((c : Thread nD τ).loc main_arg1) :=
      (V7_of m c main_arg1 (by decide)).trans <| (V6_of m c main_arg1 (by decide)).trans <| (V5_of m c main_arg1 (by decide)).trans <| (V4_of m c main_arg1 (by decide)).trans <|
        (V3_of m c main_arg1 (by decide)).trans <| (V2_of m c main_arg1 (by decide)).trans <| (V1_of m c main_arg1 (by decide)).trans rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := StableHlo.after_of_writes_sub hostOps2 _ hostOps2_writes (r := main_arg2) (by decide)
    _ = W8 m c (Proc.devRef .tc main_arg2) := Function.update_of_ne (StableHlo.devRef_ne_of_ne (by decide)) _ _
    _ = W7 m c (Proc.devRef .tc main_arg2) := W8_of_ne m c main_arg2 (by decide)
    _ = m ((c : Thread nD τ).loc main_arg2) :=
      (V7_of m c main_arg2 (by decide)).trans <| (V6_of m c main_arg2 (by decide)).trans <| (V5_of m c main_arg2 (by decide)).trans <| (V4_of m c main_arg2 (by decide)).trans <|
        (V3_of m c main_arg2 (by decide)).trans <| (V2_of m c main_arg2 (by decide)).trans <| (V1_of m c main_arg2 (by decide)).trans rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := StableHlo.after_of_writes_sub hostOps2 _ hostOps2_writes (r := main_arg3) (by decide)
    _ = W8 m c (Proc.devRef .tc main_arg3) := Function.update_of_ne (StableHlo.devRef_ne_of_ne (by decide)) _ _
    _ = W7 m c (Proc.devRef .tc main_arg3) := W8_of_ne m c main_arg3 (by decide)
    _ = m ((c : Thread nD τ).loc main_arg3) :=
      (V7_of m c main_arg3 (by decide)).trans <| (V6_of m c main_arg3 (by decide)).trans <| (V5_of m c main_arg3 (by decide)).trans <| (V4_of m c main_arg3 (by decide)).trans <|
        (V3_of m c main_arg3 (by decide)).trans <| (V2_of m c main_arg3 (by decide)).trans <| (V1_of m c main_arg3 (by decide)).trans rfl

/-! ## The proof data family and the thread state -/

/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The passes as segments -/

set_option backward.isDefEq.respectTransparency.types false in
/-- PASS 1 over the thread state: entered from every unscoped buffer at `W7`, left at `W8`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PASS 2 over the thread state: entered from every unscoped buffer at `W8`, left at `W9`. The array it reads through two
    windows is cut into two halves at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit : (unscopedBufs (Ix := Unit) (Name := ℕ) (U := UR sig nD τ) (Lvl := ℕ) c (E8 m c) : sProp 𝕄)
        ⊢ iprop((pdats m 1 c).arrays ((pdats m 1 c).arrAt · 0)
          ∗ Pipeline.unscopedRest (Ix := Unit) (Name := ℕ) (U := UR sig nD τ) (Lvl := ℕ) spec1 c (E8 m c)) := by
      rw [Pipeline.unscopedBufs_split₀ cfgs 1 winFacts₀1.arr_unscoped c (E8 m c)]
      exact sep_mono (arrays_of_arrBufs1 (E8 m) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E8 m c))
        ⊢ (unscopedBufs (Ix := Unit) (Name := ℕ) (U := UR sig nD τ) (Lvl := ℕ) c (E9 m c) : sProp 𝕄) := by
      rw [Pipeline.unscopedBufs_split₀ cfgs 1 winFacts₀1.arr_unscoped c (E9 m c)]
      refine sep_mono (arrBufs_of_arrays1 (E8 m) c _ (E9 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .region (reg1 m),
    .host (hseg hostOps2 hostOps2_sub hostOps2_fresh (W9 m)) ]

set_option backward.isDefEq.respectTransparency.types false in
/-- THE RUN, at any `F`: from any memory with zero counters every weakly fair execution of @main terminates, nothing
    faulting, and the final memory holds `W10` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c =>
        show (iprop(StableHlo.held (c : Thread nD τ) (Pipeline.ucRefs τ sig) (W10 m c)
              ∗ ((∃ r, prngReg c r) ∗ ∃ W, owes (c : Thread nD τ) (0 : CellTallies nD τ sig Unit) W)) : sProp 𝕄)
            ⊢ iprop((StableHlo.held (c : Thread nD τ) (Pipeline.ucRefs τ sig) (W10 m c) ∗ ∃ r, prngReg c r)
              ∗ ∃ W, owes (c : Thread nD τ) (0 : CellTallies nD τ sig Unit) W) from by
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME, at any `F`: the run, read at the four argument arrays. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

end Cert.Kernel.Pass

end
-- ==== Proof.IRegion0.lean ====
/-
  Pass 1 of the Chebyshev kernel as a pipeline of 32 grid points, at any float instance: what each window's staging
  buffer holds around the body. Point `t` is handed rows 256·t … 256·t+255 of the operator `L` (window 0) and the whole
  batch-major signal matrix (window 1), and leaves in the output window's buffer the product of the two — one whole-block
  store. The body reads nothing else and keeps nothing between points, so the pipeline's invariant is only the scoped
  buffers it does not stage and the generator register.
-/
import proofs.«165797_g43559558316210_cont_sun_m_1389_5_alg».proof.Proof.Gen.KernelIdeal.Launch
import proofs.«165797_g43559558316210_cont_sun_m_1389_5_alg».proof.Proof.Gen.KernelIdeal.Skeleton
import proofs.«165797_g43559558316210_cont_sun_m_1389_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when pass 1 is entered
variable (V : (c : Dev nD) → (b : Ref sig .tc) → Buf (Elt F) ((c : Thread nD τ).loc b))

/-- Window `w`'s block at point `t`, read off its array as pass 1 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `L` is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The signal matrix, fetched at the first point only, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body touches. -/
abbrev rL0 : Rect S256x8192 := Rect.unit (s := S256x8192) ![0, 0] S256x8192.size inb_S256x8192_S256x8192_0_0
abbrev rX0 : Rect S8192x64 := Rect.unit (s := S8192x64) ![0, 0] S8192x64.size inb_S8192x64_S8192x64_0_0
abbrev rO0 : Rect S256x64 := Rect.unit (s := S256x64) ![0, 0] S256x64.size inb_S256x64_S256x64_0_0

/-- What the body leaves in the output window's buffer: its one store, of the product of the two loaded blocks. -/
def out0_2 (x0 : Vec F S256x8192 .f32) (x1 : Vec F S8192x64 .bf16) : Vec F S256x64 .f32 :=
  View.canon [⟨rO0, k0_pay1 (View.ld x0 rL0) (View.ld x1 rX0)⟩]

/-- The one store covers the buffer. -/
theorem cover0_2 (p0 : Vec F S256x64 .f32) (y : S256x64.Idx) :
    ∃ pc ∈ ([⟨rO0, p0⟩] : List (View.Piece (Elt F) S256x64 .f32)), y ∈ pc.1.set :=
  View.cover_of_tiled [⟨rO0, p0⟩] S256x64.size (by rfl) y

set_option maxHeartbeats 1000000 in
/-- The body on whole staging buffers: the two inputs are left as found, the output's buffer ends at `out0_2` of them. -/
theorem sound_kernel0 (c : Dev nD) (E : Set ℕ) (i : grid0.Coords)
    (arg1 : Memref sig .tc .vmem S256x8192 .f32) (harg1 : arg1.IsWhole) (arg2 : Memref sig .tc .vmem S8192x64 .bf16) (harg2 : arg2.IsWhole)
    (arg3 : Memref sig .tc .vmem S256x64 .f32) (harg3 : arg3.IsWhole)
    (x0 : Vec F S256x8192 .f32) (x1 : Vec F S8192x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__pass1_kernel i arg1 harg1 arg2 harg2 arg3 harg3) K := by
  simp only [cc0__pass1_kernel_eq_skeleton]; unfold cc0__pass1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Pass 1's proof data on core `c`: the arrays as found; each input's buffer keeps its block, the output's holds the product;
    nothing owed, every array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pass

end
-- ==== Proof.IRegion1.lean ====
/-
  Pass 2 of the Chebyshev kernel as a pipeline of 32 grid points, at any float instance. Point `t` is handed rows
  256·t … 256·t+255 of the operator `L` (window 0), the WHOLE first-order matrix `L·x` (window 1), the same rows of the signal
  matrix (window 2) and of `L·x` (window 3), the three combined weights (windows 4–6) and the bias row (window 7), and leaves in
  the output window's buffer one whole-block store of
      x·W_A + (L·x)·W_B + (L·(L·x))·W_C + bias.
  Windows 1 and 3 read ONE array: the core holds it in two halves of the full share, one per window — both only read it.
-/
import proofs.«165797_g43559558316210_cont_sun_m_1389_5_alg».proof.Proof.Gen.KernelIdeal.Launch
import proofs.«165797_g43559558316210_cont_sun_m_1389_5_alg».proof.Proof.Gen.KernelIdeal.Skeleton
import proofs.«165797_g43559558316210_cont_sun_m_1389_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when pass 2 is entered
variable (V : (c : Dev nD) → (b : Ref sig .tc) → Buf (Elt F) ((c : Thread nD τ).loc b))

/-- Window `w`'s block at point `t`, read off its array as pass 2 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of `L` is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole first-order matrix `L·x`, fetched at the first point only, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the signal matrix is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row block of the first-order matrix is in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first combined weight, fetched once, stays in its staging buffer. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The second combined weight, fetched once, stays in its staging buffer. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The third combined weight, fetched once, stays in its staging buffer. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, stays in its staging buffer. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body touches. -/
abbrev rL1 : Rect S256x8192 := Rect.unit (s := S256x8192) ![0, 0] S256x8192.size inb_S256x8192_S256x8192_0_0
abbrev rX1 : Rect S8192x64 := Rect.unit (s := S8192x64) ![0, 0] S8192x64.size inb_S8192x64_S8192x64_0_0
abbrev rO1 : Rect S256x64 := Rect.unit (s := S256x64) ![0, 0] S256x64.size inb_S256x64_S256x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output window's buffer: its one store, of the combined value of the eight loaded blocks
    (in the windows' order: L rows, whole L·x, x rows, L·x rows, W_A, W_B, W_C, bias row). -/
def out1_8 (x0 : Vec F S256x8192 .f32) (x1 : Vec F S8192x64 .f32) (x2 : Vec F S256x64 .f32) (x3 : Vec F S256x64 .f32)
    (x4 : Vec F S64x64 .f32) (x5 : Vec F S64x64 .f32) (x6 : Vec F S64x64 .f32) (x7 : Vec F S1x64 .f32) : Vec F S256x64 .f32 :=
  View.canon [⟨rO1, k1_pay1 (View.ld x0 rL1) (View.ld x1 rX1) (View.ld x2 rO1) (View.ld x4 rW1) (View.ld x3 rO1) (View.ld x5 rW1) (View.ld x6 rW1) (View.ld x7 rB1)⟩]

/-- The one store covers the buffer. -/
theorem cover1_8 (p0 : Vec F S256x64 .f32) (y : S256x64.Idx) :
    ∃ pc ∈ ([⟨rO1, p0⟩] : List (View.Piece (Elt F) S256x64 .f32)), y ∈ pc.1.set :=
  View.cover_of_tiled [⟨rO1, p0⟩] S256x64.size (by rfl) y

set_option maxHeartbeats 2000000 in
/-- The body on whole staging buffers: the eight inputs are left as found, the output's buffer ends at `out1_8` of them. -/
theorem sound_kernel1 (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S256x64 .f32) (harg9 : arg9.IsWhole)
    (x0 : Vec F S256x8192 .f32) (x1 : Vec F S8192x64 .f32) (x2 : Vec F S256x64 .f32) (x3 : Vec F S256x64 .f32)
    (x4 : Vec F S64x64 .f32) (x5 : Vec F S64x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- Pass 2's proof data on core `c`: the arrays as found; each input's buffer keeps its block, the output's holds the combined
    value; nothing owed; every array at the full share but the one two windows read, held in halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨1, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pass

end
-- ==== Proof.IShare.lean ====
/-
  Pass 2 reads the first-order matrix `L·x` through two windows. The core holds that array once, at the full share; the
  pipeline wants one points-to per window. So at entry the full share is cut into its left and right halves, one per
  reading window, and at exit — both windows only read, so both halves still hold the entry contents — the halves are
  joined again. Every other array of pass 2 belongs to one window and is held whole.
-/
import proofs.«165797_g43559558316210_cont_sun_m_1389_5_alg».proof.Proof.IRegion1

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight distinct buffers behind pass 2's nine windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v26) ↦{fullShare} V main_v26) ∗ (((c : Thread nD τ).loc main_v1) ↦{fullShare} V main_v1) ∗ (((c : Thread nD τ).loc main_v19) ↦{fullShare} V main_v19) ∗ (((c : Thread nD τ).loc main_v15) ↦{fullShare} V main_v15) ∗ (((c : Thread nD τ).loc main_v21) ↦{fullShare} V main_v21) ∗ (((c : Thread nD τ).loc main_v25) ↦{fullShare} V main_v25) ∗ (((c : Thread nD τ).loc main_v27) ↦{fullShare} V main_v27)) :=
  bigSep_eq_bigSepL_of_eq [main_arg1, main_v26, main_v1, main_v19, main_v15, main_v21, main_v25, main_v27] (by decide) (by decide) _

variable (V : (c : Dev nD) → (b : Ref sig .tc) → Buf (Elt F) ((c : Thread nD τ).loc b))

/-- ENTRY: the eight distinct buffers behind pass 2's nine windows, each whole at the full share, are its arrays — the
    array two windows read cut into the two halves of its share. -/
theorem arrays_of_arrBufs1 (c : Dev nD) (Fa : (w : Fin cfg1.W) → Buf (Elt F) ((cfg1.win w).arr.view.loc (c.tc : Thread nD τ)))
    (hF : ∀ w, Fa w = V c (Pipeline.arrRef spec1 w)) :
    (Pipeline.arrBufs (Ix := Unit) (Name := ℕ) (U := UR sig nD τ) (Lvl := ℕ) spec1 c (V c) : sProp 𝕄) ⊢ (dat1 V c).arrays Fa := by
  rw [arrBufs1_eq]
  unfold Pipeline.Dat.arrays
  rw [bigSep_W1]
  simp only [hF, View.set_whole]
  iintro ⟨HL, H26, H1, H19, H15, H21, H25, H27⟩
  ihave Hh := (pointsTo_share (PosShare.mem_left_op_right fullShare)).1 $$ H26
  icases Hh with ⟨Ha, Hb⟩
  isplitl [HL]; · iexact HL
  isplitl [Ha]; · iexact Ha
  isplitl [H1]; · iexact H1
  isplitl [Hb]; · iexact Hb
  isplitl [H19]; · iexact H19
  isplitl [H15]; · iexact H15
  isplitl [H21]; · iexact H21
  isplitl [H25]; · iexact H25
  iexact H27

/-- EXIT: pass 2's arrays — every input array still at its entry contents, the two halves of the twice-read one among
    them, the output array at what the pipeline left — are the eight distinct buffers whole at the full share, at any
    contents `V'` that name what each window's array holds. -/
theorem arrBufs_of_arrays1 (c : Dev nD) (Fa : (w : Fin cfg1.W) → Buf (Elt F) ((cfg1.win w).arr.view.loc (c.tc : Thread nD τ)))
    (V' : (b : Ref sig .tc) → Buf (Elt F) ((c : Thread nD τ).loc b))
    (hF : ∀ w, Fa w = V' (Pipeline.arrRef spec1 w)) :
    (dat1 V c).arrays Fa ⊢ (Pipeline.arrBufs (Ix := Unit) (Name := ℕ) (U := UR sig nD τ) (Lvl := ℕ) spec1 c V' : sProp 𝕄) := by
  rw [arrBufs1_eq]
  unfold Pipeline.Dat.arrays
  rw [bigSep_W1]
  simp only [hF, View.set_whole]
  iintro ⟨HL, Ha, H1, Hb, H19, H15, H21, H25, H27⟩
  ihave H26 := (pointsTo_share (PosShare.mem_left_op_right fullShare)).2 $$ [Ha Hb]
  · isplitl [Ha]; · iexact Ha
    iexact Hb
  isplitl [HL]; · iexact HL
  isplitl [H26]; · iexact H26
  isplitl [H1]; · iexact H1
  isplitl [H19]; · iexact H19
  isplitl [H15]; · iexact H15
  isplitl [H21]; · iexact H21
  isplitl [H25]; · iexact H25
  iexact H27

end Cert.KernelIdeal.Pass

end
-- ==== Proof.IRun.lean ====
/-
  The whole run of the Chebyshev kernel's @main, at any float instance: seven stretches of host operations (the two
  re-layouts of the signal, the block-diagonal weights, the bias row), pass 1, pass 2, and the host's final re-layout.
  Between two items every unscoped buffer of the core is held at a named valuation: the launch memory folded through the
  host stretches (`V0` … `V7`), then with pass 1's output array at what its 32 write-backs leave (`W8`), then with pass 2's
  (`W9`), then through the final stretch (`W10`). Each pass takes its arrays out of that valuation at entry and puts them
  back at exit; pass 2 reads one array through two windows and holds it in two halves meanwhile. The conclusion: every
  weakly fair execution terminates without fault, and the final memory holds `W10` at every unscoped buffer — so the
  arguments are unchanged and the result is the fold's value.
-/
import proofs.«165797_g43559558316210_cont_sun_m_1389_5_alg».proof.Proof.IRegion0
import proofs.«165797_g43559558316210_cont_sun_m_1389_5_alg».proof.Proof.IRegion1
import proofs.«165797_g43559558316210_cont_sun_m_1389_5_alg».proof.Proof.IShare
import proofs.«165797_g43559558316210_cont_sun_m_1389_5_alg».proof.Proof.Gen.KernelIdeal.Regions

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At pass 1's entry: the launch memory after the seven host stretches. -/
abbrev W7 : Dev nD → Valuation τ sig (Elt F) := fun c => V7 m c
/-- The same read at the TensorCore's references (what pass 1's proof data take). -/
abbrev E7 : (c : Dev nD) → (b : Ref sig .tc) → Buf (Elt F) ((c : Thread nD τ).loc b) := fun c b => W7 m c b

/-- At pass 1's exit: its arrays at what the pipeline leaves, every other buffer as entered. -/
def W8 (c : Dev nD) : Valuation τ sig (Elt F) :=
  Pipeline.withArrays spec0 c (W7 m c) fun w => (dat0 (E7 m) c).arrAt w cfg0.N
theorem W8_arr (c : Dev nD) (w : Fin cfg0.W) :
    W8 m c (Proc.devRef .tc (Pipeline.arrRef spec0 w)) = (dat0 (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
/-- The same read at the TensorCore's references (pass 2's entry contents). -/
abbrev E8 : (c : Dev nD) → (b : Ref sig .tc) → Buf (Elt F) ((c : Thread nD τ).loc b) := fun c b => W8 m c b
theorem hF0 (c : Dev nD) (w : Fin cfg0.W) : (dat0 (E7 m) c).arrAt w cfg0.N = E8 m c (Pipeline.arrRef spec0 w) :=
  (W8_arr m c w).symm
theorem hrest0 (c : Dev nD) : ∀ b, b ∉ Finset.univ.image (Pipeline.arrRef spec0) → E8 m c b = E7 m c b :=
  fun b hb => W8_of_ne m c b fun w e => hb (Finset.mem_image.mpr ⟨w, Finset.mem_univ _, e⟩)

/-- At pass 2's exit: its output array at what the pipeline leaves, every other buffer as entered (its input arrays
    are only read). -/
def W9 (c : Dev nD) : Valuation τ sig (Elt F) :=
  Function.update (W8 m c) (Proc.devRef .tc main_v27) ((dat1 (E8 m) c).arrAt 8 cfg1.N : Buf (Elt F) ((c : Thread nD τ).loc main_v27))
abbrev E9 : (c : Dev nD) → (b : Ref sig .tc) → Buf (Elt F) ((c : Thread nD τ).loc b) := fun c b => W9 m c b
theorem W9_out (c : Dev nD) : W9 m c (Proc.devRef .tc main_v27) = (dat1 (E8 m) c).arrAt 8 cfg1.N := by
  unfold W9; exact Function.update_self ..
theorem W9_of_ne (c : Dev nD) (b : Ref sig .tc) (hb : b ≠ main_v27) : W9 m c (Proc.devRef .tc b) = W8 m c (Proc.devRef .tc b) := by
  unfold W9; exact Function.update_of_ne (StableHlo.devRef_ne_of_ne hb) _ _
/-- An input array of pass 2 ends as entered. -/
theorem hF1_in (c : Dev nD) (w : Fin cfg1.W) (hin : (cfg1.win w).isOut = false) (hne : Pipeline.arrRef spec1 w ≠ main_v27) :
    (dat1 (E8 m) c).arrAt w cfg1.N = E9 m c (Pipeline.arrRef spec1 w) :=
  (((dat1 (E8 m) c).arrAt_in w hin _).trans (A_eq1 (E8 m) c w)).trans (W9_of_ne m c _ hne).symm
theorem hF1 (c : Dev nD) : ∀ w : Fin cfg1.W, (dat1 (E8 m) c).arrAt w cfg1.N = E9 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => (W9_out m c).symm
theorem hrest1 (c : Dev nD) : ∀ b, b ∉ Finset.univ.image (Pipeline.arrRef spec1) → E9 m c b = E8 m c b :=
  fun b hb => W9_of_ne m c b fun e => hb (Finset.mem_image.mpr ⟨8, Finset.mem_univ _, e.symm⟩)

/-- At the return: after the host's final re-layout. -/
abbrev W10 : Dev nD → Valuation τ sig (Elt F) := fun c => StableHlo.after hostOps2 (W9 m c)

/-! ### The arguments end as launched: no host operation writes one, and a pass only reads them -/

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps2 _ hostOps2_writes (r := main_arg0) (by decide)
    _ = W8 m c (Proc.devRef .tc main_arg0) := Function.update_of_ne (StableHlo.devRef_ne_of_ne (by decide)) _ _
    _ = W7 m c (Proc.devRef .tc main_arg0) := W8_of_ne m c main_arg0 (by decide)
    _ = m ((c : Thread nD τ).loc main_arg0) :=
      (V7_of m c main_arg0 (by decide)).trans <| (V6_of m c main_arg0 (by decide)).trans <| (V5_of m c main_arg0 (by decide)).trans <| (V4_of m c main_arg0 (by decide)).trans <|
        (V3_of m c main_arg0 (by decide)).trans <| (V2_of m c main_arg0 (by decide)).trans <| (V1_of m c main_arg0 (by decide)).trans rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps2 _ hostOps2_writes (r := main_arg1) (by decide)
    _ = W8 m c (Proc.devRef .tc main_arg1) := Function.update_of_ne (StableHlo.devRef_ne_of_ne (by decide)) _ _
    _ = W7 m c (Proc.devRef .tc main_arg1) := (W8_arr m c 0).trans (((dat0 (E7 m) c).arrAt_in 0 rfl _).trans (A_eq0 (E7 m) c 0))
    _ = m ((c : Thread nD τ).loc main_arg1) :=
      (V7_of m c main_arg1 (by decide)).trans <| (V6_of m c main_arg1 (by decide)).trans <| (V5_of m c main_arg1 (by decide)).trans <| (V4_of m c main_arg1 (by decide)).trans <|
        (V3_of m c main_arg1 (by decide)).trans <| (V2_of m c main_arg1 (by decide)).trans <| (V1_of m c main_arg1 (by decide)).trans rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := StableHlo.after_of_writes_sub hostOps2 _ hostOps2_writes (r := main_arg2) (by decide)
    _ = W8 m c (Proc.devRef .tc main_arg2) := Function.update_of_ne (StableHlo.devRef_ne_of_ne (by decide)) _ _
    _ = W7 m c (Proc.devRef .tc main_arg2) := W8_of_ne m c main_arg2 (by decide)
    _ = m ((c : Thread nD τ).loc main_arg2) :=
      (V7_of m c main_arg2 (by decide)).trans <| (V6_of m c main_arg2 (by decide)).trans <| (V5_of m c main_arg2 (by decide)).trans <| (V4_of m c main_arg2 (by decide)).trans <|
        (V3_of m c main_arg2 (by decide)).trans <| (V2_of m c main_arg2 (by decide)).trans <| (V1_of m c main_arg2 (by decide)).trans rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := StableHlo.after_of_writes_sub hostOps2 _ hostOps2_writes (r := main_arg3) (by decide)
    _ = W8 m c (Proc.devRef .tc main_arg3) := Function.update_of_ne (StableHlo.devRef_ne_of_ne (by decide)) _ _
    _ = W7 m c (Proc.devRef .tc main_arg3) := W8_of_ne m c main_arg3 (by decide)
    _ = m ((c : Thread nD τ).loc main_arg3) :=
      (V7_of m c main_arg3 (by decide)).trans <| (V6_of m c main_arg3 (by decide)).trans <| (V5_of m c main_arg3 (by decide)).trans <| (V4_of m c main_arg3 (by decide)).trans <|
        (V3_of m c main_arg3 (by decide)).trans <| (V2_of m c main_arg3 (by decide)).trans <| (V1_of m c main_arg3 (by decide)).trans rfl

/-! ## The proof data family and the thread state -/

/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The passes as segments -/

set_option backward.isDefEq.respectTransparency.types false in
/-- PASS 1 over the thread state: entered from every unscoped buffer at `W7`, left at `W8`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PASS 2 over the thread state: entered from every unscoped buffer at `W8`, left at `W9`. The array it reads through two
    windows is cut into two halves at entry and joined again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit : (unscopedBufs (Ix := Unit) (Name := ℕ) (U := UR sig nD τ) (Lvl := ℕ) c (E8 m c) : sProp 𝕄)
        ⊢ iprop((pdats m 1 c).arrays ((pdats m 1 c).arrAt · 0)
          ∗ Pipeline.unscopedRest (Ix := Unit) (Name := ℕ) (U := UR sig nD τ) (Lvl := ℕ) spec1 c (E8 m c)) := by
      rw [Pipeline.unscopedBufs_split₀ cfgs 1 winFacts₀1.arr_unscoped c (E8 m c)]
      exact sep_mono (arrays_of_arrBufs1 (E8 m) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E8 m c))
        ⊢ (unscopedBufs (Ix := Unit) (Name := ℕ) (U := UR sig nD τ) (Lvl := ℕ) c (E9 m c) : sProp 𝕄) := by
      rw [Pipeline.unscopedBufs_split₀ cfgs 1 winFacts₀1.arr_unscoped c (E9 m c)]
      refine sep_mono (arrBufs_of_arrays1 (E8 m) c _ (E9 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .region (reg1 m),
    .host (hseg hostOps2 hostOps2_sub hostOps2_fresh (W9 m)) ]

set_option backward.isDefEq.respectTransparency.types false in
/-- THE RUN, at any `F`: from any memory with zero counters every weakly fair execution of @main terminates, nothing
    faulting, and the final memory holds `W10` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c =>
        show (iprop(StableHlo.held (c : Thread nD τ) (Pipeline.ucRefs τ sig) (W10 m c)
              ∗ ((∃ r, prngReg c r) ∗ ∃ W, owes (c : Thread nD τ) (0 : CellTallies nD τ sig Unit) W)) : sProp 𝕄)
            ⊢ iprop((StableHlo.held (c : Thread nD τ) (Pipeline.ucRefs τ sig) (W10 m c) ∗ ∃ r, prngReg c r)
              ∗ ∃ W, owes (c : Thread nD τ) (0 : CellTallies nD τ sig Unit) W) from by
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME, at any `F`: the run, read at the four argument arrays. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

end Cert.KernelIdeal.Pass

end
-- ==== Proof.HostPrefixLayout.lean ====
/-
  The layout chains of the host program before the two regions, each read at an index written by coordinates, over
  arbitrary operand arrays.

  • The input x : [2, 8192, 32] with its first two axes swapped and then viewed as [8192, 64]: entry (r, col) is
    x(col / 32, r, col % 32) — column 32·n + f holds batch n, feature f.
  • The 2 × 2 identity built from two index grids: 1 on the diagonal, 0 off it.
  • A [96, 32] weight viewed as [32, 3, 32], cut at position k of the middle axis and viewed as [32, 32]: entry (f, o)
    is the weight's row 3·f + k, column o.
  • The Kronecker product of a 2 × 2 array E with a 32 × 32 array W as a broadcast–multiply–reshape to [64, 64]:
    entry (r, d) is E(r / 32, d / 32) · W(r % 32, d % 32).
  • A bias [32] viewed as a row, repeated twice and laid out as a [1, 64] row: entry (0, d) is the bias at d % 32.
  • A scalar spread over a [64, 64] array reads that scalar everywhere.
-/
import proofs.«165797_g43559558316210_cont_sun_m_1389_5_alg».proof.Proof.Gen.KernelIdeal
import Idealize.ShloMosaic.Lib.ValueLayout

noncomputable section

namespace Cert.KernelIdeal.KValue

open Idealize.ShloMosaic Idealize.ShloMosaic.ValueIdx

variable {α : Type}

/-! ## The input, axes swapped and flattened -/

/-- x : [2, 8192, 32] transposed to [8192, 2, 32] and viewed as [8192, 64], at (r, col): x(col / 32, r, col % 32). -/
theorem swap_flatten_apply (x : S2x8192x32.Idx → α) (h1 : S2x8192x32.Transposes [1, 0, 2] S8192x2x32)
    (h2 : S8192x2x32.ShapeCasts S8192x64) (r : Fin 8192) (col : Fin 64) :
    shapeCast S8192x64 (transpose S8192x2x32 [1, 0, 2] x h1) h2 (ix2 r col)
      = x (ix3 (⟨col.val / 32, by omega⟩ : Fin 2) r (⟨col.val % 32, by omega⟩ : Fin 32)) := by
  refine (shapeCast_apply _ h2 (ix2 r col)
    (ix3 r (⟨col.val / 32, by omega⟩ : Fin 2) (⟨col.val % 32, by omega⟩ : Fin 32)) ?_).trans ?_
  · rw [Shape.rowMajor_val_three, Shape.rowMajor_val_two]
    show (r.val * 2 + col.val / 32) * 32 + col.val % 32 = r.val * 64 + col.val
    omega
  · refine transpose_apply _ x h1 _ _ fun b => ?_
    match b with
    | ⟨0, _⟩ => rfl
    | ⟨1, _⟩ => rfl
    | ⟨2, _⟩ => rfl

/-! ## The 2 × 2 identity -/

/-- The compare of the two index grids as a word: 1 when the coordinates agree, 0 otherwise. -/
theorem eye_word : ∀ a b : Fin 2,
    (IntOp.cmpi .eq (IntOp.addi (BitVec.ofNat 32 a.val) 0#32) (BitVec.ofNat 32 b.val)).toNat = if a = b then 1 else 0 := by
  decide

/-- The 2 × 2 identity as the host builds it, at (a, b): 1 if a = b, else 0. -/
theorem eye_apply (h : S_.BroadcastsInDim S2x2 (![] : Fin 0 → Fin S2x2.rank)) (a b : Fin 2) :
    uitofp (F := Ideal) .f32 (cmpi .eq (addi (iotaInDim S2x2 32 0) (broadcastInDim S2x2 ![] h (constantI S_ 32 0#32)))
        (iotaInDim S2x2 32 1)) (ix2 a b)
      = if a = b then (1 : EReal) else 0 := by
  show (((IntOp.cmpi .eq (IntOp.addi (BitVec.ofNat 32 a.val) 0#32) (BitVec.ofNat 32 b.val)).toNat : ℝ) : EReal) = _
  rw [eye_word a b]
  split <;> simp

/-! ## One of the three [32, 32] weight slices -/

/-- w : [96, 32] viewed as [32, 3, 32], cut at position k of the middle axis, viewed as [32, 32], at (f, o):
    w(3·f + k, o). -/
theorem weight_slice_apply (w : S96x32.Idx → α) (k : Nat) (hk : k < 3) (h1 : S96x32.ShapeCasts S32x3x32)
    (h2 : S32x3x32.Slices ![0, k, 0] S32x1x32) (h3 : S32x1x32.ShapeCasts S32x32) (f o : Fin 32) :
    shapeCast S32x32 (extractStridedSlice S32x1x32 ![0, k, 0] (shapeCast S32x3x32 w h1) h2) h3 (ix2 f o)
      = w (ix2 (⟨3 * f.val + k, by omega⟩ : Fin 96) o) := by
  refine (shapeCast_apply _ h3 (ix2 f o) (ix3 f (0 : Fin 1) o) ?_).trans ?_
  · rw [Shape.rowMajor_val_three, Shape.rowMajor_val_two]
    show (f.val * 1 + 0) * 32 + o.val = f.val * 32 + o.val
    omega
  refine (slice3_axis1_apply k _ h2 f (0 : Fin 1) o (⟨k, hk⟩ : Fin 3) rfl).trans ?_
  refine shapeCast_apply w h1 _ _ ?_
  rw [Shape.rowMajor_val_three, Shape.rowMajor_val_two]
  show (3 * f.val + k) * 32 + o.val = (f.val * 3 + k) * 32 + o.val
  omega

/-! ## The Kronecker product with the 2 × 2 array -/

/-- E : [2, 2] spread to [2, 32, 2, 32] through [2, 1, 2, 1], at (a, f, b, o): E(a, b). -/
theorem spread_E_apply (E : S2x2.Idx → α) (h1 : S2x2.BroadcastsInDim S2x1x2x1 (![0, 2] : Fin 2 → Fin S2x1x2x1.rank))
    (h2 : S2x1x2x1.BroadcastsInDim S2x32x2x32 (![0, 1, 2, 3] : Fin 4 → Fin S2x32x2x32.rank))
    (a : Fin 2) (f : Fin 32) (b : Fin 2) (o : Fin 32) :
    broadcastInDim S2x32x2x32 ![0, 1, 2, 3] h2 (broadcastInDim S2x1x2x1 ![0, 2] h1 E) (ix4 a f b o) = E (ix2 a b) := by
  refine (broadcastInDim_apply _ h2 _ (ix4 a f b o) (ix4 a (0 : Fin 1) b (0 : Fin 1)) fun ax => ?_).trans ?_
  · match ax with
    | ⟨0, _⟩ => rfl
    | ⟨1, _⟩ => rfl
    | ⟨2, _⟩ => rfl
    | ⟨3, _⟩ => rfl
  · refine broadcastInDim_apply _ h1 E _ (ix2 a b) fun ax => ?_
    match ax with
    | ⟨0, _⟩ => rfl
    | ⟨1, _⟩ => rfl

/-- W : [32, 32] spread to [2, 32, 2, 32] through [1, 32, 1, 32], at (a, f, b, o): W(f, o). -/
theorem spread_W_apply (W : S32x32.Idx → α) (h1 : S32x32.BroadcastsInDim S1x32x1x32 (![1, 3] : Fin 2 → Fin S1x32x1x32.rank))
    (h2 : S1x32x1x32.BroadcastsInDim S2x32x2x32 (![0, 1, 2, 3] : Fin 4 → Fin S2x32x2x32.rank))
    (a : Fin 2) (f : Fin 32) (b : Fin 2) (o : Fin 32) :
    broadcastInDim S2x32x2x32 ![0, 1, 2, 3] h2 (broadcastInDim S1x32x1x32 ![1, 3] h1 W) (ix4 a f b o) = W (ix2 f o) := by
  refine (broadcastInDim_apply _ h2 _ (ix4 a f b o) (ix4 (0 : Fin 1) f (0 : Fin 1) o) fun ax => ?_).trans ?_
  · match ax with
    | ⟨0, _⟩ => rfl
    | ⟨1, _⟩ => rfl
    | ⟨2, _⟩ => rfl
    | ⟨3, _⟩ => rfl
  · refine broadcastInDim_apply _ h1 W _ (ix2 f o) fun ax => ?_
    match ax with
    | ⟨0, _⟩ => rfl
    | ⟨1, _⟩ => rfl

/-- The Kronecker product of E : [2, 2] and W : [32, 32] as broadcast, multiply, reshape to [64, 64], at (r, d):
    E(r / 32, d / 32) · W(r % 32, d % 32). -/
theorem kron_apply (E : FVec Ideal S2x2 .f32) (W : FVec Ideal S32x32 .f32)
    (hE1 : S2x2.BroadcastsInDim S2x1x2x1 (![0, 2] : Fin 2 → Fin S2x1x2x1.rank))
    (hW1 : S32x32.BroadcastsInDim S1x32x1x32 (![1, 3] : Fin 2 → Fin S1x32x1x32.rank))
    (hE2 : S2x1x2x1.BroadcastsInDim S2x32x2x32 (![0, 1, 2, 3] : Fin 4 → Fin S2x32x2x32.rank))
    (hW2 : S1x32x1x32.BroadcastsInDim S2x32x2x32 (![0, 1, 2, 3] : Fin 4 → Fin S2x32x2x32.rank))
    (hc : S2x32x2x32.ShapeCasts S64x64) (r d : Fin 64) :
    shapeCast S64x64 (mulf (F := Ideal) (broadcastInDim S2x32x2x32 ![0, 1, 2, 3] hE2 (broadcastInDim S2x1x2x1 ![0, 2] hE1 E))
        (broadcastInDim S2x32x2x32 ![0, 1, 2, 3] hW2 (broadcastInDim S1x32x1x32 ![1, 3] hW1 W))) hc (ix2 r d)
      = E (ix2 (⟨r.val / 32, by omega⟩ : Fin 2) (⟨d.val / 32, by omega⟩ : Fin 2))
          * W (ix2 (⟨r.val % 32, by omega⟩ : Fin 32) (⟨d.val % 32, by omega⟩ : Fin 32)) := by
  refine (shapeCast_apply _ hc (ix2 r d)
    (ix4 (⟨r.val / 32, by omega⟩ : Fin 2) (⟨r.val % 32, by omega⟩ : Fin 32)
      (⟨d.val / 32, by omega⟩ : Fin 2) (⟨d.val % 32, by omega⟩ : Fin 32)) ?_).trans ?_
  · rw [Shape.rowMajor_val_four, Shape.rowMajor_val_two]
    show ((r.val / 32 * 32 + r.val % 32) * 2 + d.val / 32) * 32 + d.val % 32 = r.val * 64 + d.val
    omega
  · rw [mulf_apply, spread_E_apply, spread_W_apply]

/-! ## The bias row -/

/-- b : [32] viewed as [1, 32], repeated to [2, 32], flattened to [64] and viewed as [1, 64], at (u, d): b(d % 32). -/
theorem bias_row_apply (b : S32.Idx → α) (h1 : S32.ShapeCasts S1x32)
    (h2 : S1x32.BroadcastsInDim S2x32 (![0, 1] : Fin 2 → Fin S2x32.rank)) (h3 : S2x32.ShapeCasts S64)
    (h4 : S64.ShapeCasts S1x64) (u : Fin 1) (d : Fin 64) :
    shapeCast S1x64 (shapeCast S64 (broadcastInDim S2x32 ![0, 1] h2 (shapeCast S1x32 b h1)) h3) h4 (ix2 u d)
      = b (ix1 (⟨d.val % 32, by omega⟩ : Fin 32)) := by
  refine (shapeCast_a_1a_apply _ h4 u d).trans ?_
  refine (shapeCast_apply _ h3 (ix1 d) (ix2 (⟨d.val / 32, by omega⟩ : Fin 2) (⟨d.val % 32, by omega⟩ : Fin 32)) ?_).trans ?_
  · rw [Shape.rowMajor_val_two, Shape.rowMajor_val_one]
    show d.val / 32 * 32 + d.val % 32 = d.val
    omega
  refine (broadcastInDim_apply _ h2 _ _ (ix2 (0 : Fin 1) (⟨d.val % 32, by omega⟩ : Fin 32)) fun ax => ?_).trans ?_
  · match ax with
    | ⟨0, _⟩ => rfl
    | ⟨1, _⟩ => rfl
  · exact shapeCast_a_1a_apply b h1 _ _

/-! ## A scalar spread over [64, 64] -/

/-- A scalar constant spread over [64, 64] reads the constant's value everywhere. -/
theorem splat_64x64_apply (bits : BitVec 32) (h : S_.BroadcastsInDim S64x64 (![] : Fin 0 → Fin S64x64.rank)) (i : S64x64.Idx) :
    broadcastInDim S64x64 ![] h (constant (F := Ideal) S_ .f32 bits) i = Ideal.ofBits .f32 bits := rfl

end Cert.KernelIdeal.KValue

end
-- ==== Proof.HostPrefixStretch.lean ====
/-
  Each stretch of host operations before the two regions, read at an index, from ARBITRARY buffer contents `V` at its
  start: what the stretch leaves in each array the regions later read, as a function of the arrays the stretch itself
  reads. The layout arithmetic is in the module of layout chains; here each stretch's fold is reduced to the
  operations' composed term and that term is read by those chains.
-/
import proofs.«165797_g43559558316210_cont_sun_m_1389_5_alg».proof.Proof.Gen.KernelIdeal.Launch
import proofs.«165797_g43559558316210_cont_sun_m_1389_5_alg».proof.Proof.HostPrefixLayout

noncomputable section

namespace Cert.KernelIdeal.KValue

open Idealize.ShloMosaic Idealize.ShloMosaic.TcCoe Idealize.ShloMosaic.ValueIdx
open Idealize.ShloMosaic.StableHlo (after)

variable (V : Valuation τ sig (Elt Ideal))

/-! ## The first stretch: the input re-laid, the 2 × 2 identity, the weight viewed [32, 3, 32], its first slice -/

theorem s0_v1_term :
    after (Gen.hostOps0 (F := Ideal)) V (main_v1 : DevRef τ sig)
      = shapeCast S8192x64 (transpose S8192x2x32 [1, 0, 2] (V (main_arg0 : DevRef τ sig))
          Gen.transposes_S2x8192x32_S8192x2x32_1_0_2) Gen.shapeCasts_S8192x2x32_S8192x64 := by
  after_results
  all_goals rfl

/-- The re-laid input at (r, col): the input at (col / 32, r, col % 32). -/
theorem s0_v1_apply (r : Fin 8192) (col : Fin 64) :
    (after (Gen.hostOps0 (F := Ideal)) V (main_v1 : DevRef τ sig) : S8192x64.Idx → EReal) (ix2 r col)
      = (V (main_arg0 : DevRef τ sig) : S2x8192x32.Idx → EReal)
          (ix3 (⟨col.val / 32, by omega⟩ : Fin 2) r (⟨col.val % 32, by omega⟩ : Fin 32)) := by
  rw [s0_v1_term]
  exact swap_flatten_apply _ _ _ r col

theorem s0_v2_term :
    after (Gen.hostOps0 (F := Ideal)) V (main_v2 : DevRef τ sig)
      = truncf (F := Ideal) .bf16 (shapeCast S8192x64 (transpose S8192x2x32 [1, 0, 2] (V (main_arg0 : DevRef τ sig))
          Gen.transposes_S2x8192x32_S8192x2x32_1_0_2) Gen.shapeCasts_S8192x2x32_S8192x64) Gen.bitsLt_bf16_f32 := by
  after_results
  all_goals rfl

/-- Its narrowed copy holds the same extended reals. -/
theorem s0_v2_apply (r : Fin 8192) (col : Fin 64) :
    (after (Gen.hostOps0 (F := Ideal)) V (main_v2 : DevRef τ sig) : S8192x64.Idx → EReal) (ix2 r col)
      = (V (main_arg0 : DevRef τ sig) : S2x8192x32.Idx → EReal)
          (ix3 (⟨col.val / 32, by omega⟩ : Fin 2) r (⟨col.val % 32, by omega⟩ : Fin 32)) := by
  rw [s0_v2_term, truncf_apply]
  exact swap_flatten_apply _ _ _ r col

/-- The weight viewed as [32, 3, 32]. -/
theorem s0_v3_term :
    after (Gen.hostOps0 (F := Ideal)) V (main_v3 : DevRef τ sig)
      = shapeCast S32x3x32 (V (main_arg2 : DevRef τ sig)) Gen.shapeCasts_S96x32_S32x3x32 := by
  after_results
  all_goals rfl

theorem s0_v9_term :
    after (Gen.hostOps0 (F := Ideal)) V (main_v9 : DevRef τ sig)
      = uitofp (F := Ideal) .f32 (cmpi .eq (addi (iotaInDim S2x2 32 0)
          (broadcastInDim S2x2 ![] Gen.bcast_S_S2x2 (constantI S_ 32 0#32))) (iotaInDim S2x2 32 1)) := by
  after_results
  all_goals rfl

/-- The 2 × 2 identity at (a, b). -/
theorem s0_v9_apply (a b : Fin 2) :
    (after (Gen.hostOps0 (F := Ideal)) V (main_v9 : DevRef τ sig) : S2x2.Idx → EReal) (ix2 a b)
      = if a = b then (1 : EReal) else 0 := by
  rw [s0_v9_term]
  exact eye_apply _ a b

theorem s0_v11_term :
    after (Gen.hostOps0 (F := Ideal)) V (main_v11 : DevRef τ sig)
      = shapeCast S32x32 (extractStridedSlice S32x1x32 ![0, 0, 0]
          (shapeCast S32x3x32 (V (main_arg2 : DevRef τ sig)) Gen.shapeCasts_S96x32_S32x3x32)
          Gen.slices_S32x3x32_S32x1x32_0_0_0) Gen.shapeCasts_S32x1x32_S32x32 := by
  after_results
  all_goals rfl

/-- The first weight slice at (f, o): the weight's row 3·f, column o. -/
theorem s0_v11_apply (f o : Fin 32) :
    (after (Gen.hostOps0 (F := Ideal)) V (main_v11 : DevRef τ sig) : S32x32.Idx → EReal) (ix2 f o)
      = (V (main_arg2 : DevRef τ sig) : S96x32.Idx → EReal) (ix2 (⟨3 * f.val + 0, by omega⟩ : Fin 96) o) := by
  rw [s0_v11_term]
  exact weight_slice_apply _ 0 (by omega) _ _ _ f o

/-! ## The second and third weight slices -/

theorem s2_v14_term :
    after (Gen.hostOps0_2 (F := Ideal)) V (main_v14 : DevRef τ sig)
      = shapeCast S32x32 (extractStridedSlice S32x1x32 ![0, 1, 0] (V (main_v3 : DevRef τ sig))
          Gen.slices_S32x3x32_S32x1x32_0_1_0) Gen.shapeCasts_S32x1x32_S32x32 := by
  after_results
  all_goals rfl

/-- The second weight slice at (f, o), when the [32, 3, 32] array is the view of `w`: w(3·f + 1, o). -/
theorem s2_v14_apply (w : S96x32.Idx → EReal)
    (hw : V (main_v3 : DevRef τ sig) = shapeCast S32x3x32 w Gen.shapeCasts_S96x32_S32x3x32) (f o : Fin 32) :
    (after (Gen.hostOps0_2 (F := Ideal)) V (main_v14 : DevRef τ sig) : S32x32.Idx → EReal) (ix2 f o)
      = w (ix2 (⟨3 * f.val + 1, by omega⟩ : Fin 96) o) := by
  rw [s2_v14_term, hw]
  exact weight_slice_apply w 1 (by omega) _ _ _ f o

theorem s4_v17_term :
    after (Gen.hostOps0_4 (F := Ideal)) V (main_v17 : DevRef τ sig)
      = shapeCast S32x32 (extractStridedSlice S32x1x32 ![0, 2, 0] (V (main_v3 : DevRef τ sig))
          Gen.slices_S32x3x32_S32x1x32_0_2_0) Gen.shapeCasts_S32x1x32_S32x32 := by
  after_results
  all_goals rfl

/-- The third weight slice at (f, o): w(3·f + 2, o). -/
theorem s4_v17_apply (w : S96x32.Idx → EReal)
    (hw : V (main_v3 : DevRef τ sig) = shapeCast S32x3x32 w Gen.shapeCasts_S96x32_S32x3x32) (f o : Fin 32) :
    (after (Gen.hostOps0_4 (F := Ideal)) V (main_v17 : DevRef τ sig) : S32x32.Idx → EReal) (ix2 f o)
      = w (ix2 (⟨3 * f.val + 2, by omega⟩ : Fin 96) o) := by
  rw [s4_v17_term, hw]
  exact weight_slice_apply w 2 (by omega) _ _ _ f o

/-! ## The three Kronecker products -/

/-- The Kronecker term of a 2 × 2 array and a 32 × 32 array, as the three call sites compute it. -/
abbrev kronTerm (E : FVec Ideal S2x2 .f32) (W : FVec Ideal S32x32 .f32) : FVec Ideal S64x64 .f32 :=
  shapeCast S64x64 (mulf (F := Ideal)
      (broadcastInDim S2x32x2x32 ![0, 1, 2, 3] Gen.bcast_S2x1x2x1_S2x32x2x32_0_1_2_3
        (broadcastInDim S2x1x2x1 ![0, 2] Gen.bcast_S2x2_S2x1x2x1_0_2 E))
      (broadcastInDim S2x32x2x32 ![0, 1, 2, 3] Gen.bcast_S1x32x1x32_S2x32x2x32_0_1_2_3
        (broadcastInDim S1x32x1x32 ![1, 3] Gen.bcast_S32x32_S1x32x1x32_1_3 W)))
    Gen.shapeCasts_S2x32x2x32_S64x64

theorem kronTerm_apply (E : FVec Ideal S2x2 .f32) (W : FVec Ideal S32x32 .f32) (r d : Fin 64) :
    kronTerm E W (ix2 r d)
      = E (ix2 (⟨r.val / 32, by omega⟩ : Fin 2) (⟨d.val / 32, by omega⟩ : Fin 2))
          * W (ix2 (⟨r.val % 32, by omega⟩ : Fin 32) (⟨d.val % 32, by omega⟩ : Fin 32)) :=
  kron_apply E W _ _ _ _ _ r d

theorem s1_v12_term :
    after (Gen.hostOps0_1 (F := Ideal)) V (main_v12 : DevRef τ sig)
      = kronTerm (V (main_v9 : DevRef τ sig)) (V (main_v11 : DevRef τ sig)) := by
  after_results
  all_goals rfl

theorem s3_v15_term :
    after (Gen.hostOps0_3 (F := Ideal)) V (main_v15 : DevRef τ sig)
      = kronTerm (V (main_v9 : DevRef τ sig)) (V (main_v14 : DevRef τ sig)) := by
  after_results
  all_goals rfl

theorem s5_v18_term :
    after (Gen.hostOps0_5 (F := Ideal)) V (main_v18 : DevRef τ sig)
      = kronTerm (V (main_v9 : DevRef τ sig)) (V (main_v17 : DevRef τ sig)) := by
  after_results
  all_goals rfl

/-- The first Kronecker product at (r, d), from the 2 × 2 array `E` and the first weight slice `W` the stretch reads. -/
theorem s1_v12_apply (E : S2x2.Idx → EReal) (W : S32x32.Idx → EReal) (hE : V (main_v9 : DevRef τ sig) = E)
    (hW : V (main_v11 : DevRef τ sig) = W) (r d : Fin 64) :
    (after (Gen.hostOps0_1 (F := Ideal)) V (main_v12 : DevRef τ sig) : S64x64.Idx → EReal) (ix2 r d)
      = E (ix2 (⟨r.val / 32, by omega⟩ : Fin 2) (⟨d.val / 32, by omega⟩ : Fin 2))
          * W (ix2 (⟨r.val % 32, by omega⟩ : Fin 32) (⟨d.val % 32, by omega⟩ : Fin 32)) := by
  rw [s1_v12_term, hE, hW]
  exact kronTerm_apply E W r d

/-- The second Kronecker product at (r, d). -/
theorem s3_v15_apply (E : S2x2.Idx → EReal) (W : S32x32.Idx → EReal) (hE : V (main_v9 : DevRef τ sig) = E)
    (hW : V (main_v14 : DevRef τ sig) = W) (r d : Fin 64) :
    (after (Gen.hostOps0_3 (F := Ideal)) V (main_v15 : DevRef τ sig) : S64x64.Idx → EReal) (ix2 r d)
      = E (ix2 (⟨r.val / 32, by omega⟩ : Fin 2) (⟨d.val / 32, by omega⟩ : Fin 2))
          * W (ix2 (⟨r.val % 32, by omega⟩ : Fin 32) (⟨d.val % 32, by omega⟩ : Fin 32)) := by
  rw [s3_v15_term, hE, hW]
  exact kronTerm_apply E W r d

/-- The third Kronecker product at (r, d). -/
theorem s5_v18_apply (E : S2x2.Idx → EReal) (W : S32x32.Idx → EReal) (hE : V (main_v9 : DevRef τ sig) = E)
    (hW : V (main_v17 : DevRef τ sig) = W) (r d : Fin 64) :
    (after (Gen.hostOps0_5 (F := Ideal)) V (main_v18 : DevRef τ sig) : S64x64.Idx → EReal) (ix2 r d)
      = E (ix2 (⟨r.val / 32, by omega⟩ : Fin 2) (⟨d.val / 32, by omega⟩ : Fin 2))
          * W (ix2 (⟨r.val % 32, by omega⟩ : Fin 32) (⟨d.val % 32, by omega⟩ : Fin 32)) := by
  rw [s5_v18_term, hE, hW]
  exact kronTerm_apply E W r d

/-! ## The last stretch: the difference, the doubling, the bias row -/

theorem s6_v19_term :
    after (Gen.hostOps0_6 (F := Ideal)) V (main_v19 : DevRef τ sig)
      = subf (F := Ideal) (φ := .f32) (s := S64x64) (V (main_v12 : DevRef τ sig)) (V (main_v18 : DevRef τ sig)) := by
  after_results

/-- The difference of the first and third Kronecker products, entry by entry. -/
theorem s6_v19_apply (a12 a18 : S64x64.Idx → EReal) (h12 : V (main_v12 : DevRef τ sig) = a12)
    (h18 : V (main_v18 : DevRef τ sig) = a18) (i : S64x64.Idx) :
    (after (Gen.hostOps0_6 (F := Ideal)) V (main_v19 : DevRef τ sig) : S64x64.Idx → EReal) i = a12 i - a18 i := by
  rw [s6_v19_term, h12, h18]
  rfl

theorem s6_v21_term :
    after (Gen.hostOps0_6 (F := Ideal)) V (main_v21 : DevRef τ sig)
      = mulf (F := Ideal) (φ := .f32) (s := S64x64)
          (broadcastInDim S64x64 ![] Gen.bcast_S_S64x64 (constant (F := Ideal) S_ .f32 0x40000000#32))
          (V (main_v18 : DevRef τ sig)) := by
  after_results
  all_goals rfl

/-- The literal two times the third Kronecker product, entry by entry. -/
theorem s6_v21_apply (a18 : S64x64.Idx → EReal) (h18 : V (main_v18 : DevRef τ sig) = a18) (i : S64x64.Idx) :
    (after (Gen.hostOps0_6 (F := Ideal)) V (main_v21 : DevRef τ sig) : S64x64.Idx → EReal) i
      = Ideal.ofBits .f32 0x40000000#32 * a18 i := by
  rw [s6_v21_term, h18]
  rfl

theorem s6_v25_term :
    after (Gen.hostOps0_6 (F := Ideal)) V (main_v25 : DevRef τ sig)
      = shapeCast S1x64 (shapeCast S64 (broadcastInDim S2x32 ![0, 1] Gen.bcast_S1x32_S2x32_0_1
          (shapeCast S1x32 (V (main_arg3 : DevRef τ sig)) Gen.shapeCasts_S32_S1x32)) Gen.shapeCasts_S2x32_S64)
          Gen.shapeCasts_S64_S1x64 := by
  after_results
  all_goals rfl

/-- The bias row at (u, d): the bias at d % 32. -/
theorem s6_v25_apply (u : Fin 1) (d : Fin 64) :
    (after (Gen.hostOps0_6 (F := Ideal)) V (main_v25 : DevRef τ sig) : S1x64.Idx → EReal) (ix2 u d)
      = (V (main_arg3 : DevRef τ sig) : S32.Idx → EReal) (ix1 (⟨d.val % 32, by omega⟩ : Fin 32)) := by
  rw [s6_v25_term]
  exact bias_row_apply _ _ _ _ _ u d

end Cert.KernelIdeal.KValue

end
-- ==== Proof.HostPrefix.lean ====
/-
  What the arrays the two regions read hold when the first region is entered, entry by entry, as functions of the four
  argument arrays at launch. Each array is followed back through the stretches of host operations that do not write it
  to the stretch that does, and that stretch's read is taken from the module of stretches.

  With e the 2 × 2 identity and w the [96, 32] weight, the [64, 64] block e ⊗ W_k has entry (r, d) equal to
  e(r / 32, d / 32) · w(3·(r % 32) + k, d % 32). The regions read: the re-laid input (and its narrowed copy), the
  difference of the blocks of k = 0 and k = 2, the block of k = 1, twice the block of k = 2, and the bias row.
-/
import proofs.«165797_g43559558316210_cont_sun_m_1389_5_alg».proof.Proof.Gen.KernelIdeal.Regions
import proofs.«165797_g43559558316210_cont_sun_m_1389_5_alg».proof.Proof.HostPrefixStretch

noncomputable section

namespace Cert.KernelIdeal.KValue

open Idealize.ShloMosaic Idealize.ShloMosaic.TcCoe Idealize.ShloMosaic.ValueIdx
open Idealize.ShloMosaic.StableHlo (after)

variable (m : (ℓ : Loc nD τ sig) → Buf (Elt Ideal) ℓ) (c : Dev nD)

/-! ## The argument arrays at launch, and the block e ⊗ W_k -/

/-- The input x : [2, 8192, 32] on core `c` at launch. -/
abbrev arg0 : S2x8192x32.Idx → EReal := m ((c : Thread nD τ).loc main_arg0)
/-- The matrix L : [8192, 8192] on core `c` at launch. -/
abbrev arg1 : S8192x8192.Idx → EReal := m ((c : Thread nD τ).loc main_arg1)
/-- The weight w : [96, 32] on core `c` at launch. -/
abbrev arg2 : S96x32.Idx → EReal := m ((c : Thread nD τ).loc main_arg2)
/-- The bias b : [32] on core `c` at launch. -/
abbrev arg3 : S32.Idx → EReal := m ((c : Thread nD τ).loc main_arg3)

/-- The 2 × 2 identity spread over 32 × 32 blocks of a [64, 64] array: 1 when r and d lie in the same block. -/
def blockEye (r d : Fin 64) : EReal :=
  if (⟨r.val / 32, by omega⟩ : Fin 2) = (⟨d.val / 32, by omega⟩ : Fin 2) then 1 else 0

/-- The block e ⊗ W_k of a weight `w` at (r, d): e(r / 32, d / 32) · w(3·(r % 32) + k, d % 32). -/
def kronAt (w : S96x32.Idx → EReal) (k : Nat) (hk : k < 3) (r d : Fin 64) : EReal :=
  blockEye r d * w (ix2 (⟨3 * (r.val % 32) + k, by omega⟩ : Fin 96) (⟨d.val % 32, by omega⟩ : Fin 32))

/-! ## Arrays no later stretch writes -/

theorem V3_eq_V1 (r : Ref sig .tc) (h1 : r ∉ Gen.hostOps0_1_W := by decide) (h2 : r ∉ Gen.hostOps0_2_W := by decide) :
    Gen.V3 m c (r : DevRef τ sig) = Gen.V1 m c (r : DevRef τ sig) :=
  (Gen.V3_of m c r h2).trans (Gen.V2_of m c r h1)

theorem V5_eq_V3 (r : Ref sig .tc) (h3 : r ∉ Gen.hostOps0_3_W := by decide) (h4 : r ∉ Gen.hostOps0_4_W := by decide) :
    Gen.V5 m c (r : DevRef τ sig) = Gen.V3 m c (r : DevRef τ sig) :=
  (Gen.V5_of m c r h4).trans (Gen.V4_of m c r h3)

theorem V7_eq_V5 (r : Ref sig .tc) (h5 : r ∉ Gen.hostOps0_5_W := by decide) (h6 : r ∉ Gen.hostOps0_6_W := by decide) :
    Gen.V7 m c (r : DevRef τ sig) = Gen.V5 m c (r : DevRef τ sig) :=
  (Gen.V7_of m c r h6).trans (Gen.V6_of m c r h5)

/-! ## The first stretch's arrays -/

/-- The re-laid input when the first region is entered, at (r, col): x(col / 32, r, col % 32). -/
theorem V7_v1_apply (r : Fin 8192) (col : Fin 64) :
    (Gen.V7 m c (main_v1 : DevRef τ sig) : S8192x64.Idx → EReal) (ix2 r col)
      = arg0 m c (ix3 (⟨col.val / 32, by omega⟩ : Fin 2) r (⟨col.val % 32, by omega⟩ : Fin 32)) := by
  rw [V7_eq_V5 m c main_v1, V5_eq_V3 m c main_v1, V3_eq_V1 m c main_v1]
  exact s0_v1_apply (Gen.V0 m c) r col

/-- Its narrowed copy holds the same extended reals. -/
theorem V7_v2_apply (r : Fin 8192) (col : Fin 64) :
    (Gen.V7 m c (main_v2 : DevRef τ sig) : S8192x64.Idx → EReal) (ix2 r col)
      = arg0 m c (ix3 (⟨col.val / 32, by omega⟩ : Fin 2) r (⟨col.val % 32, by omega⟩ : Fin 32)) := by
  rw [V7_eq_V5 m c main_v2, V5_eq_V3 m c main_v2, V3_eq_V1 m c main_v2]
  exact s0_v2_apply (Gen.V0 m c) r col

/-- The 2 × 2 identity after the first stretch. -/
theorem V1_v9_apply (a b : Fin 2) :
    (Gen.V1 m c (main_v9 : DevRef τ sig) : S2x2.Idx → EReal) (ix2 a b) = if a = b then (1 : EReal) else 0 :=
  s0_v9_apply (Gen.V0 m c) a b

/-- The 2 × 2 identity when the first region is entered. -/
theorem V7_v9_apply (a b : Fin 2) :
    (Gen.V7 m c (main_v9 : DevRef τ sig) : S2x2.Idx → EReal) (ix2 a b) = if a = b then (1 : EReal) else 0 := by
  rw [V7_eq_V5 m c main_v9, V5_eq_V3 m c main_v9, V3_eq_V1 m c main_v9]
  exact V1_v9_apply m c a b

/-- The weight viewed as [32, 3, 32], after the first stretch. -/
theorem V1_v3_term :
    Gen.V1 m c (main_v3 : DevRef τ sig) = shapeCast S32x3x32 (arg2 m c) Gen.shapeCasts_S96x32_S32x3x32 :=
  s0_v3_term (Gen.V0 m c)

/-! ## The three weight slices -/

theorem V1_v11_apply (f o : Fin 32) :
    (Gen.V1 m c (main_v11 : DevRef τ sig) : S32x32.Idx → EReal) (ix2 f o)
      = arg2 m c (ix2 (⟨3 * f.val + 0, by omega⟩ : Fin 96) o) :=
  s0_v11_apply (Gen.V0 m c) f o

theorem V3_v14_apply (f o : Fin 32) :
    (Gen.V3 m c (main_v14 : DevRef τ sig) : S32x32.Idx → EReal) (ix2 f o)
      = arg2 m c (ix2 (⟨3 * f.val + 1, by omega⟩ : Fin 96) o) :=
  s2_v14_apply (Gen.V2 m c) (arg2 m c) ((Gen.V2_of m c main_v3 (by decide)).trans (V1_v3_term m c)) f o

theorem V5_v17_apply (f o : Fin 32) :
    (Gen.V5 m c (main_v17 : DevRef τ sig) : S32x32.Idx → EReal) (ix2 f o)
      = arg2 m c (ix2 (⟨3 * f.val + 2, by omega⟩ : Fin 96) o) :=
  s4_v17_apply (Gen.V4 m c) (arg2 m c)
    ((Gen.V4_of m c main_v3 (by decide)).trans ((V3_eq_V1 m c main_v3).trans (V1_v3_term m c))) f o

/-! ## The three blocks e ⊗ W_k -/

/-- The block of k = 0 where it is written. -/
theorem V2_v12_apply (r d : Fin 64) :
    (Gen.V2 m c (main_v12 : DevRef τ sig) : S64x64.Idx → EReal) (ix2 r d) = kronAt (arg2 m c) 0 (by omega) r d := by
  refine (s1_v12_apply (Gen.V1 m c) (Gen.V1 m c (main_v9 : DevRef τ sig)) (Gen.V1 m c (main_v11 : DevRef τ sig))
    rfl rfl r d).trans ?_
  rw [V1_v9_apply, V1_v11_apply]
  rfl

/-- The block of k = 1 where it is written. -/
theorem V4_v15_apply (r d : Fin 64) :
    (Gen.V4 m c (main_v15 : DevRef τ sig) : S64x64.Idx → EReal) (ix2 r d) = kronAt (arg2 m c) 1 (by omega) r d := by
  refine (s3_v15_apply (Gen.V3 m c) (Gen.V1 m c (main_v9 : DevRef τ sig)) (Gen.V3 m c (main_v14 : DevRef τ sig))
    (V3_eq_V1 m c main_v9) rfl r d).trans ?_
  rw [V1_v9_apply, V3_v14_apply]
  rfl

/-- The block of k = 2 where it is written. -/
theorem V6_v18_apply (r d : Fin 64) :
    (Gen.V6 m c (main_v18 : DevRef τ sig) : S64x64.Idx → EReal) (ix2 r d) = kronAt (arg2 m c) 2 (by omega) r d := by
  refine (s5_v18_apply (Gen.V5 m c) (Gen.V1 m c (main_v9 : DevRef τ sig)) (Gen.V5 m c (main_v17 : DevRef τ sig))
    ((V5_eq_V3 m c main_v9).trans (V3_eq_V1 m c main_v9)) rfl r d).trans ?_
  rw [V1_v9_apply, V5_v17_apply]
  rfl

/-- The block of k = 0 before the last stretch. -/
theorem V6_v12_apply (r d : Fin 64) :
    (Gen.V6 m c (main_v12 : DevRef τ sig) : S64x64.Idx → EReal) (ix2 r d) = kronAt (arg2 m c) 0 (by omega) r d := by
  rw [Gen.V6_of m c main_v12 (by decide), Gen.V5_of m c main_v12 (by decide), Gen.V4_of m c main_v12 (by decide),
    Gen.V3_of m c main_v12 (by decide)]
  exact V2_v12_apply m c r d

/-! ## What the regions read -/

/-- The block of k = 1 when the first region is entered (the second product's right factor). -/
theorem V7_v15_apply (r d : Fin 64) :
    (Gen.V7 m c (main_v15 : DevRef τ sig) : S64x64.Idx → EReal) (ix2 r d) = kronAt (arg2 m c) 1 (by omega) r d := by
  rw [V7_eq_V5 m c main_v15, Gen.V5_of m c main_v15 (by decide)]
  exact V4_v15_apply m c r d

/-- The difference of the blocks of k = 0 and k = 2 (the first product's right factor). -/
theorem V7_v19_apply (r d : Fin 64) :
    (Gen.V7 m c (main_v19 : DevRef τ sig) : S64x64.Idx → EReal) (ix2 r d)
      = kronAt (arg2 m c) 0 (by omega) r d - kronAt (arg2 m c) 2 (by omega) r d := by
  refine (s6_v19_apply (Gen.V6 m c) (Gen.V6 m c (main_v12 : DevRef τ sig)) (Gen.V6 m c (main_v18 : DevRef τ sig))
    rfl rfl (ix2 r d)).trans ?_
  rw [V6_v12_apply, V6_v18_apply]

/-- The literal two times the block of k = 2 (the third product's right factor). -/
theorem V7_v21_apply (r d : Fin 64) :
    (Gen.V7 m c (main_v21 : DevRef τ sig) : S64x64.Idx → EReal) (ix2 r d)
      = Ideal.ofBits .f32 0x40000000#32 * kronAt (arg2 m c) 2 (by omega) r d := by
  refine (s6_v21_apply (Gen.V6 m c) (Gen.V6 m c (main_v18 : DevRef τ sig)) rfl (ix2 r d)).trans ?_
  rw [V6_v18_apply]

/-- The bias row at (u, d): b(d % 32). -/
theorem V7_v25_apply (u : Fin 1) (d : Fin 64) :
    (Gen.V7 m c (main_v25 : DevRef τ sig) : S1x64.Idx → EReal) (ix2 u d)
      = arg3 m c (ix1 (⟨d.val % 32, by omega⟩ : Fin 32)) := by
  refine (s6_v25_apply (Gen.V6 m c) u d).trans ?_
  rw [Gen.V6_of m c main_arg3 (by decide), Gen.V5_of m c main_arg3 (by decide), Gen.V4_of m c main_arg3 (by decide),
    Gen.V3_of m c main_arg3 (by decide), Gen.V2_of m c main_arg3 (by decide), Gen.V1_of m c main_arg3 (by decide)]

/-- The matrix L reaches the regions as launched. -/
theorem V7_arg1 : Gen.V7 m c (main_arg1 : DevRef τ sig) = arg1 m c := by
  rw [V7_eq_V5 m c main_arg1, V5_eq_V3 m c main_arg1, V3_eq_V1 m c main_arg1, Gen.V1_of m c main_arg1 (by decide)]

end Cert.KernelIdeal.KValue

end
-- ==== Proof.HostTail.lean ====
/-
  The host operations after the two regions, read at an index: the [8192, 64] array the second region leaves is viewed
  as [8192, 2, 32] (column 32·n + o becomes the pair (n, o)) and its first two axes are swapped, so the result at
  (n, r, o) is the array at row r, column 32·n + o.
-/
import proofs.«165797_g43559558316210_cont_sun_m_1389_5_alg».proof.Proof.Gen.KernelIdeal.Launch
import Idealize.ShloMosaic.Lib.ValueLayout

noncomputable section

namespace Cert.KernelIdeal.KValue

open Idealize.ShloMosaic Idealize.ShloMosaic.TcCoe Idealize.ShloMosaic.ValueIdx
open Idealize.ShloMosaic.StableHlo (after)

/-- The last two host operations as one term of the array they start from. -/
theorem hostOps2_result (W : Valuation τ sig (Elt Ideal)) :
    after (Gen.hostOps2 (F := Ideal)) W (main_v29 : DevRef τ sig)
      = transpose S2x8192x32 [1, 0, 2]
          (shapeCast S8192x2x32 (W (main_v27 : DevRef τ sig)) Gen.shapeCasts_S8192x64_S8192x2x32)
          Gen.transposes_S8192x2x32_S2x8192x32_1_0_2 := by
  after_results
  rfl

/-- The [8192, 64] → [8192, 2, 32] view read at (r, n, o): the array at (r, 32·n + o). -/
theorem reshape_8192x64_apply (a : S8192x64.Idx → EReal) (r : Fin 8192) (n : Fin 2) (o : Fin 32) :
    shapeCast S8192x2x32 a Gen.shapeCasts_S8192x64_S8192x2x32 (ix3 r n o)
      = a (ix2 r (⟨32 * n.val + o.val, by omega⟩ : Fin 64)) :=
  shapeCast_apply a _ _ _ (by
    rw [Shape.rowMajor_val_two, Shape.rowMajor_val_three]
    show r.val * 64 + (32 * n.val + o.val) = (r.val * 2 + n.val) * 32 + o.val
    omega)

/-- THE HOST TAIL AT AN INDEX: from any buffer contents `W` whose [8192, 64] array `main_v27` is `a`, the result
    array at (n, r, o) is `a` at (r, 32·n + o). -/
theorem hostTail_apply (W : Valuation τ sig (Elt Ideal)) (a : S8192x64.Idx → EReal)
    (ha : W (main_v27 : DevRef τ sig) = a) (n : Fin 2) (r : Fin 8192) (o : Fin 32) :
    (after (Gen.hostOps2 (F := Ideal)) W (main_v29 : DevRef τ sig) : S2x8192x32.Idx → EReal) (ix3 n r o)
      = a (ix2 r (⟨32 * n.val + o.val, by omega⟩ : Fin 64)) := by
  rw [hostOps2_result, ha]
  refine (transpose_apply _ _ _ (ix3 n r o) (ix3 r n o) fun b => ?_).trans (reshape_8192x64_apply a r n o)
  match b with
  | ⟨0, _⟩ => rfl
  | ⟨1, _⟩ => rfl
  | ⟨2, _⟩ => rfl

end Cert.KernelIdeal.KValue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Payload0.lean ====
/-
  The first region's stored block, entry by entry, at the ideal values: the product of a block of 256 rows of the
  [8192, 8192] matrix with the whole [8192, 64] right factor. The change of float format on the way into the product
  is the identity on extended reals, the shape cast is to the same shape, and the accumulator is the zero splat, so the
  entry at (p, e) is the plain sum over k of L(p, k) · R(k, e).
-/
import proofs.«165797_g43559558316210_cont_sun_m_1389_5_alg».proof.Proof.Gen.KernelIdeal.Skeleton
import proofs.«165797_g43559558316210_cont_sun_m_1389_5_alg».proof.Proof.LibPlainMatmul
import Idealize.ShloMosaic.Lib.ValueLayout

noncomputable section

namespace Cert.KernelIdeal.KValue

open Idealize.ShloMosaic Idealize.ShloMosaic.ValueIdx
open scoped BigOperators

/-- The first region's payload at (p, e): Σ_k L(p, k) · R(k, e). -/
theorem k0_pay1_apply (v0 : Vec Ideal S256x8192 .f32) (v2 : Vec Ideal S8192x64 .bf16) (p : Fin 256) (e : Fin 64) :
    Gen.k0_pay1 (F := Ideal) v0 v2 (ix2 p e) = ∑ k : Fin 8192, v0 (ix2 p k) * v2 (ix2 k e) := by
  unfold Gen.k0_pay1
  rw [shapeCast_self]
  exact matmul_plain_zero_apply 256 8192 64 none _ _ p e

end Cert.KernelIdeal.KValue

end
-- ==== Proof.Payload1.lean ====
/-
  The second region's stored block, entry by entry, at the ideal values. The block is the sum, in this association, of
  three [256, 64] × [64, 64] products and a broadcast row:
      ((A·WA + B·WB) + (L·X)·WC) + row,
  where L·X is itself the product of 256 rows of the [8192, 8192] matrix with an [8192, 64] array. Every change of
  float format is the identity on extended reals, every shape cast is to the same shape, and every accumulator is the
  zero splat, so each product read at an entry is the plain sum of products over the contracted coordinate.
-/
import proofs.«165797_g43559558316210_cont_sun_m_1389_5_alg».proof.Proof.Gen.KernelIdeal.Skeleton
import proofs.«165797_g43559558316210_cont_sun_m_1389_5_alg».proof.Proof.LibPlainMatmul
import Idealize.ShloMosaic.Lib.ValueLayout

noncomputable section

namespace Cert.KernelIdeal.KValue

open Idealize.ShloMosaic Idealize.ShloMosaic.ValueIdx
open scoped BigOperators

/-- A [256, 8192] × [8192, 64] product into the zero accumulator at (p, e): Σ_k l(p, k) · r(k, e). -/
theorem matmul_256x8192x64_apply {φ₁ φ₂ : FTy} (l : FVec Ideal S256x8192 φ₁) (r : FVec Ideal S8192x64 φ₂)
    (p : Fin 256) (e : Fin 64) :
    matmul (F := Ideal) dot_S256x8192_S8192x64_S256x64_1_0_0_1_n_n none l r
        (constant (F := Ideal) S256x64 .f32 0x00000000#32) (ix2 p e)
      = ∑ k : Fin 8192, l (ix2 p k) * r (ix2 k e) :=
  matmul_plain_zero_apply 256 8192 64 none l r p e

/-- A [256, 64] × [64, 64] product into the zero accumulator at (p, d): Σ_c l(p, c) · r(c, d). -/
theorem matmul_256x64x64_apply {φ₁ φ₂ : FTy} (l : FVec Ideal S256x64 φ₁) (r : FVec Ideal S64x64 φ₂)
    (p : Fin 256) (d : Fin 64) :
    matmul (F := Ideal) dot_S256x64_S64x64_S256x64_1_0_0_1_n_n none l r
        (constant (F := Ideal) S256x64 .f32 0x00000000#32) (ix2 p d)
      = ∑ c : Fin 64, l (ix2 p c) * r (ix2 c d) :=
  matmul_plain_zero_apply 256 64 64 none l r p d

/-- The second region's payload at (p, d), in the payload's own association. -/
theorem k1_pay1_apply (v0 : Vec Ideal S256x8192 .f32) (v2 : Vec Ideal S8192x64 .f32) (v6 : Vec Ideal S256x64 .f32)
    (v8 : Vec Ideal S64x64 .f32) (v11 : Vec Ideal S256x64 .f32) (v13 : Vec Ideal S64x64 .f32)
    (v17 : Vec Ideal S64x64 .f32) (v21 : Vec Ideal S1x64 .f32) (p : Fin 256) (d : Fin 64) :
    Gen.k1_pay1 (F := Ideal) v0 v2 v6 v8 v11 v13 v17 v21 (ix2 p d)
      = ((∑ c : Fin 64, v6 (ix2 p c) * v8 (ix2 c d)) + (∑ c : Fin 64, v11 (ix2 p c) * v13 (ix2 c d)))
          + (∑ c : Fin 64, (∑ k : Fin 8192, v0 (ix2 p k) * v2 (ix2 k c)) * v17 (ix2 c d))
          + v21 (ix2 (0 : Fin 1) d) := by
  unfold Gen.k1_pay1
  simp only [shapeCast_self]
  rw [addf_apply, addf_apply, addf_apply, matmul_256x64x64_apply, matmul_256x64x64_apply, matmul_256x64x64_apply,
    broadcastTo_1b_ab_apply]
  refine congrArg₂ (· + ·) (congrArg₂ (· + ·) rfl (Finset.sum_congr rfl fun c _ => ?_)) rfl
  rw [matmul_256x8192x64_apply]
  rfl

end Cert.KernelIdeal.KValue

end
-- ==== Proof.Spec.lean ====
/-
  The specification of the Chebyshev graph convolution of order three, as plain functions of the four
  argument arrays with literal coordinate types, valued in the extended reals.

  With W(f,k,o) = w(3f+k, o), X1 = L·x and T = L·X1 (matrix products along the 8192 graph nodes):

  * the reference arrangement  refF  = (Σ_{i<96} X_(i mod 3)(n, m, i / 3) · w(i, o)) + b(o),
    where X_0 = x, X_1 = X1, X_2 = 2·T − x;
  * the kernel arrangement     kerF  = ((Σ_c x0k·WA) + (Σ_c x1k·WB)) + (Σ_c t·WC) + b(o),
    over columns c = 32n'+f of the batch-major layout, with the block-diagonal weights
    WA = e⊗W0 − e⊗W2, WB = e⊗W1, WC = 2·(e⊗W2), e the 2×2 identity.

  The two agree on real entries (Law.lean); this module only states them.
-/
import Idealize.ShloMosaic.PureOps.Ideal
import Idealize.ShloMosaic.PureOps.Ideal.Laws

noncomputable section

open scoped BigOperators

namespace Cert.Cheb

open Idealize.ShloMosaic

/-- The extended real the f32 pattern of 2.0 denotes. -/
def two : EReal := Ideal.ofBits .f32 0x40000000#32

/-- It is the number two. -/
theorem two_eq : two = 2 := by
  unfold two
  rw [show (2 : EReal) = ((2 : ℝ) : EReal) by norm_cast]
  simp [Ideal.ofBits, Ideal.ieee, -EReal.coe_mul]; norm_num

/-! ## Coordinates -/

/-- Row 3f+k of the packed weight: tap k of input feature f. -/
def wrow (f : Fin 32) (k : Fin 3) : Fin 96 := ⟨3 * f.val + k.val, by omega⟩
/-- The input feature i / 3 of a packed weight row. -/
def fOf (i : Fin 96) : Fin 32 := ⟨i.val / 3, by omega⟩
/-- The tap i mod 3 of a packed weight row. -/
def kOf (i : Fin 96) : Fin 3 := ⟨i.val % 3, by omega⟩
/-- The batch c / 32 of a batch-major column. -/
def hi (c : Fin 64) : Fin 2 := ⟨c.val / 32, by omega⟩
/-- The feature c mod 32 of a batch-major column. -/
def lo (c : Fin 64) : Fin 32 := ⟨c.val % 32, by omega⟩
/-- The batch-major column 32n+o. -/
def col (n : Fin 2) (o : Fin 32) : Fin 64 := ⟨32 * n.val + o.val, by omega⟩

@[simp] theorem hi_col (n : Fin 2) (o : Fin 32) : hi (col n o) = n := by
  apply Fin.ext; simp only [hi, col]; omega
@[simp] theorem lo_col (n : Fin 2) (o : Fin 32) : lo (col n o) = o := by
  apply Fin.ext; simp only [lo, col]; omega
@[simp] theorem col_hi_lo (c : Fin 64) : col (hi c) (lo c) = c := by
  apply Fin.ext; simp only [hi, lo, col]; omega
@[simp] theorem fOf_wrow (f : Fin 32) (k : Fin 3) : fOf (wrow f k) = f := by
  apply Fin.ext; simp only [fOf, wrow]; omega
@[simp] theorem kOf_wrow (f : Fin 32) (k : Fin 3) : kOf (wrow f k) = k := by
  apply Fin.ext; simp only [kOf, wrow]; omega
@[simp] theorem wrow_fOf_kOf (i : Fin 96) : wrow (fOf i) (kOf i) = i := by
  apply Fin.ext; simp only [fOf, kOf, wrow]; omega

section
variable (x : Fin 2 → Fin 8192 → Fin 32 → EReal) (L : Fin 8192 → Fin 8192 → EReal)
  (w : Fin 96 → Fin 32 → EReal) (b : Fin 32 → EReal)

/-! ## The Chebyshev terms -/

/-- X1 = L·x: one application of the operator along the nodes. -/
def X1 (n : Fin 2) (m : Fin 8192) (f : Fin 32) : EReal := ∑ j : Fin 8192, L m j * x n j f
/-- T = L·X1: two applications. -/
def T (n : Fin 2) (m : Fin 8192) (f : Fin 32) : EReal := ∑ j : Fin 8192, L m j * X1 x L n j f
/-- X2 = 2·T − x: the third Chebyshev term. -/
def X2 (n : Fin 2) (m : Fin 8192) (f : Fin 32) : EReal := two * T x L n m f - x n m f
/-- The term of tap k. -/
def Xsel (k : Fin 3) (n : Fin 2) (m : Fin 8192) (f : Fin 32) : EReal :=
  if k.val = 0 then x n m f else if k.val = 1 then X1 x L n m f else X2 x L n m f
/-- The stacked terms at a packed column i = 3f+k. -/
def Xk (n : Fin 2) (m : Fin 8192) (i : Fin 96) : EReal := Xsel x L (kOf i) n m (fOf i)

/-- The reference arrangement: the stacked terms against the packed weight, plus the bias. -/
def refF (n : Fin 2) (m : Fin 8192) (o : Fin 32) : EReal :=
  (∑ i : Fin 96, Xk x L n m i * w i o) + b o

/-! ## The kernel's arrangement -/

/-- The 2×2 identity. -/
def e (n' n : Fin 2) : EReal := if n' = n then 1 else 0
/-- e ⊗ W_k at (32n'+f, 32n+o): e(n',n) · w(3f+k, o). -/
def kron (k : Fin 3) (c d : Fin 64) : EReal := e (hi c) (hi d) * w (wrow (lo c) k) (lo d)
/-- WA = e⊗W0 − e⊗W2. -/
def WA (c d : Fin 64) : EReal := kron w 0 c d - kron w 2 c d
/-- WB = e⊗W1. -/
def WB (c d : Fin 64) : EReal := kron w 1 c d
/-- WC = 2·(e⊗W2). -/
def WC (c d : Fin 64) : EReal := two * kron w 2 c d
/-- x in the batch-major layout: x0k(m, 32n+f) = x(n,m,f). -/
def x0k (m : Fin 8192) (c : Fin 64) : EReal := x (hi c) m (lo c)
/-- L·x0k. -/
def x1k (m : Fin 8192) (c : Fin 64) : EReal := ∑ j : Fin 8192, L m j * x0k x j c
/-- L·x1k. -/
def tk (m : Fin 8192) (c : Fin 64) : EReal := ∑ j : Fin 8192, L m j * x1k x L j c
/-- The bias tiled over the batch. -/
def biasRow (d : Fin 64) : EReal := b (lo d)

/-- The kernel's second pass at row m and batch-major column d. -/
def kerD (m : Fin 8192) (d : Fin 64) : EReal :=
  ((∑ c : Fin 64, x0k x m c * WA w c d) + (∑ c : Fin 64, x1k x L m c * WB w c d))
    + (∑ c : Fin 64, tk x L m c * WC w c d) + biasRow b d

/-- The kernel's result at (n, m, o): column 32n+o of the second pass. -/
def kerF (n : Fin 2) (m : Fin 8192) (o : Fin 32) : EReal := kerD x L w b m (col n o)

theorem x1k_eq (m : Fin 8192) (c : Fin 64) : x1k x L m c = X1 x L (hi c) m (lo c) := rfl
theorem tk_eq (m : Fin 8192) (c : Fin 64) : tk x L m c = T x L (hi c) m (lo c) := rfl

end

end Cert.Cheb
-- ==== Proof.KernelSpec.lean ====
/-
  The kernel side's values against the specification's names. With x, L, w, b the four argument arrays of a core at
  launch read by coordinates, the arrays the regions read are the specification's: the re-laid input is x0k, the three
  [64, 64] right factors are WA, WB and WC, the bias row is biasRow. On those, the first region's payload on row block
  t is a block of x1k, the second region's payload is a block of kerD, and the host tail of an array holding kerD
  holds kerF.
-/
import proofs.«165797_g43559558316210_cont_sun_m_1389_5_alg».proof.Proof.HostPrefix
import proofs.«165797_g43559558316210_cont_sun_m_1389_5_alg».proof.Proof.HostTail
import proofs.«165797_g43559558316210_cont_sun_m_1389_5_alg».proof.Proof.Payload0
import proofs.«165797_g43559558316210_cont_sun_m_1389_5_alg».proof.Proof.Payload1
import proofs.«165797_g43559558316210_cont_sun_m_1389_5_alg».proof.Proof.Spec

noncomputable section

namespace Cert.KernelIdeal.KValue

open Idealize.ShloMosaic Idealize.ShloMosaic.TcCoe Idealize.ShloMosaic.ValueIdx
open Idealize.ShloMosaic.StableHlo (after)
open scoped BigOperators

variable (m : (ℓ : Loc nD τ sig) → Buf (Elt Ideal) ℓ) (c : Dev nD)

/-! ## The argument arrays by coordinates -/

/-- The input on core `c` at launch, by coordinates (batch, node, feature). -/
abbrev xOf : Fin 2 → Fin 8192 → Fin 32 → EReal := fun n r f => arg0 m c (ix3 n r f)
/-- The matrix on core `c` at launch, by coordinates. -/
abbrev LOf : Fin 8192 → Fin 8192 → EReal := fun r j => arg1 m c (ix2 r j)
/-- The packed weight on core `c` at launch, by coordinates. -/
abbrev wOf : Fin 96 → Fin 32 → EReal := fun i o => arg2 m c (ix2 i o)
/-- The bias on core `c` at launch, by coordinates. -/
abbrev bOf : Fin 32 → EReal := fun o => arg3 m c (ix1 o)

/-- The block e ⊗ W_k written with quotients and remainders is the specification's. -/
theorem kronAt_eq (k : Fin 3) (r d : Fin 64) :
    kronAt (arg2 m c) k.val k.isLt r d = Cert.Cheb.kron (wOf m c) k r d := rfl

/-! ## What the regions read, in the specification's names -/

theorem V7_v1_x0k (r : Fin 8192) (cc : Fin 64) :
    (Gen.V7 m c (main_v1 : DevRef τ sig) : S8192x64.Idx → EReal) (ix2 r cc) = Cert.Cheb.x0k (xOf m c) r cc :=
  V7_v1_apply m c r cc

theorem V7_v2_x0k (r : Fin 8192) (cc : Fin 64) :
    (Gen.V7 m c (main_v2 : DevRef τ sig) : S8192x64.Idx → EReal) (ix2 r cc) = Cert.Cheb.x0k (xOf m c) r cc :=
  V7_v2_apply m c r cc

theorem V7_v19_WA (cc d : Fin 64) :
    (Gen.V7 m c (main_v19 : DevRef τ sig) : S64x64.Idx → EReal) (ix2 cc d) = Cert.Cheb.WA (wOf m c) cc d :=
  V7_v19_apply m c cc d

theorem V7_v15_WB (cc d : Fin 64) :
    (Gen.V7 m c (main_v15 : DevRef τ sig) : S64x64.Idx → EReal) (ix2 cc d) = Cert.Cheb.WB (wOf m c) cc d :=
  V7_v15_apply m c cc d

theorem V7_v21_WC (cc d : Fin 64) :
    (Gen.V7 m c (main_v21 : DevRef τ sig) : S64x64.Idx → EReal) (ix2 cc d) = Cert.Cheb.WC (wOf m c) cc d :=
  V7_v21_apply m c cc d

theorem V7_v25_biasRow (u : Fin 1) (d : Fin 64) :
    (Gen.V7 m c (main_v25 : DevRef τ sig) : S1x64.Idx → EReal) (ix2 u d) = Cert.Cheb.biasRow (bOf m c) d :=
  V7_v25_apply m c u d

theorem V7_arg1_L (r j : Fin 8192) :
    (Gen.V7 m c (main_arg1 : DevRef τ sig) : S8192x8192.Idx → EReal) (ix2 r j) = LOf m c r j := by
  rw [V7_arg1]

/-! ## The payloads on the specification's arrays (pure: over variables) -/

section Pure

variable (x : Fin 2 → Fin 8192 → Fin 32 → EReal) (L : Fin 8192 → Fin 8192 → EReal)
  (w : Fin 96 → Fin 32 → EReal) (b : Fin 32 → EReal)

/-- Row p of row block t. -/
abbrev blockRow (t : Fin 32) (p : Fin 256) : Fin 8192 := ⟨256 * t.val + p.val, by omega⟩

/-- The first region's payload on row block t of L and the whole of x0k is row block t of x1k. -/
theorem k0_pay1_x1k (t : Fin 32) (v0 : Vec Ideal S256x8192 .f32) (v2 : Vec Ideal S8192x64 .bf16)
    (h0 : ∀ (p : Fin 256) (k : Fin 8192), v0 (ix2 p k) = L (blockRow t p) k)
    (h2 : ∀ (j : Fin 8192) (cc : Fin 64), v2 (ix2 j cc) = Cert.Cheb.x0k x j cc) (p : Fin 256) (e : Fin 64) :
    Gen.k0_pay1 (F := Ideal) v0 v2 (ix2 p e) = Cert.Cheb.x1k x L (blockRow t p) e := by
  rw [k0_pay1_apply]
  exact Finset.sum_congr rfl fun k _ => by rw [h0, h2]

/-- The second region's payload on row block t — of L, the whole of x1k, row block t of x0k and of x1k, the three
    right factors and the bias row — is row block t of kerD. -/
theorem k1_pay1_kerD (t : Fin 32) (v0 : Vec Ideal S256x8192 .f32) (v2 : Vec Ideal S8192x64 .f32)
    (v6 : Vec Ideal S256x64 .f32) (v8 : Vec Ideal S64x64 .f32) (v11 : Vec Ideal S256x64 .f32)
    (v13 : Vec Ideal S64x64 .f32) (v17 : Vec Ideal S64x64 .f32) (v21 : Vec Ideal S1x64 .f32)
    (h0 : ∀ (p : Fin 256) (k : Fin 8192), v0 (ix2 p k) = L (blockRow t p) k)
    (h2 : ∀ (j : Fin 8192) (cc : Fin 64), v2 (ix2 j cc) = Cert.Cheb.x1k x L j cc)
    (h6 : ∀ (p : Fin 256) (cc : Fin 64), v6 (ix2 p cc) = Cert.Cheb.x0k x (blockRow t p) cc)
    (h8 : ∀ cc d : Fin 64, v8 (ix2 cc d) = Cert.Cheb.WA w cc d)
    (h11 : ∀ (p : Fin 256) (cc : Fin 64), v11 (ix2 p cc) = Cert.Cheb.x1k x L (blockRow t p) cc)
    (h13 : ∀ cc d : Fin 64, v13 (ix2 cc d) = Cert.Cheb.WB w cc d)
    (h17 : ∀ cc d : Fin 64, v17 (ix2 cc d) = Cert.Cheb.WC w cc d)
    (h21 : ∀ d : Fin 64, v21 (ix2 (0 : Fin 1) d) = Cert.Cheb.biasRow b d) (p : Fin 256) (d : Fin 64) :
    Gen.k1_pay1 (F := Ideal) v0 v2 v6 v8 v11 v13 v17 v21 (ix2 p d) = Cert.Cheb.kerD x L w b (blockRow t p) d := by
  rw [k1_pay1_apply, h21]
  unfold Cert.Cheb.kerD Cert.Cheb.tk
  simp only [h0, h2, h6, h8, h11, h13, h17]

end Pure

/-! ## The host tail on an array holding kerD -/

/-- From any buffer contents whose [8192, 64] array `main_v27` holds kerD, the result array holds kerF. -/
theorem hostTail_kerF (x : Fin 2 → Fin 8192 → Fin 32 → EReal) (L : Fin 8192 → Fin 8192 → EReal)
    (w : Fin 96 → Fin 32 → EReal) (b : Fin 32 → EReal) (W : Valuation τ sig (Elt Ideal)) (a : S8192x64.Idx → EReal)
    (ha : W (main_v27 : DevRef τ sig) = a) (hD : ∀ (r : Fin 8192) (d : Fin 64), a (ix2 r d) = Cert.Cheb.kerD x L w b r d)
    (n : Fin 2) (r : Fin 8192) (o : Fin 32) :
    (after (Gen.hostOps2 (F := Ideal)) W (main_v29 : DevRef τ sig) : S2x8192x32.Idx → EReal) (ix3 n r o)
      = Cert.Cheb.kerF x L w b n r o := by
  rw [hostTail_apply W a ha n r o, hD]
  rfl

end Cert.KernelIdeal.KValue

end
-- ==== Proof.RefSide.lean ====
/-
  The reference program read at an index.

  The reference lays x out node-major with the batch innermost, x0(m, 2f+n) = x(n,m,f), applies the operator L once and
  twice along the nodes, forms 2·(L·L·x0) − x0, stacks the three terms, and re-lays the stack so that row 8192n+m,
  column 3f+k holds term k of batch n, node m, feature f; the result is that matrix against the packed weight, plus
  the bias, reshaped to [2, 8192, 32]. Each stage is read here at explicit coordinates; the last theorem says the
  whole term is the specification's reference arrangement of the four argument arrays.
-/
import proofs.«165797_g43559558316210_cont_sun_m_1389_5_alg».proof.Proof.Gen.ReferenceIdeal.Read
import proofs.«165797_g43559558316210_cont_sun_m_1389_5_alg».proof.Proof.Spec

noncomputable section

open scoped BigOperators

namespace Cert.Cheb.Ref

open Cert.ReferenceIdeal Cert.ReferenceIdeal.Gen Cert.ReferenceIdeal.Read Idealize.ShloMosaic Idealize.ShloMosaic.ValueIdx
open Cert.Cheb

/-- Column 2f+n of the reference's node-major layout. -/
def rcol (f : Fin 32) (n : Fin 2) : Fin 64 := ⟨2 * f.val + n.val, by omega⟩
/-- Row 8192n+m of the stacked matrix. -/
def row (n : Fin 2) (m : Fin 8192) : Fin 16384 := ⟨8192 * n.val + m.val, by omega⟩

variable (a0 : (⟨S2x8192x32, .f32⟩ : BufTy).Contents (Elt Ideal)) (a1 : (⟨S8192x8192, .f32⟩ : BufTy).Contents (Elt Ideal))
  (a2 : (⟨S96x32, .f32⟩ : BufTy).Contents (Elt Ideal)) (a3 : (⟨S32, .f32⟩ : BufTy).Contents (Elt Ideal))

/-- x0(m, 2f+n) = x(n,m,f). -/
theorem v1_at (m : Fin 8192) (f : Fin 32) (n : Fin 2) :
    val_main_v1 (F := Ideal) a0 (ix2 m (rcol f n)) = a0 (ix3 n m f) := by
  rw [val_main_v1_apply, val_main_v0_apply]
  refine congrArg a0 (funext fun a => Fin.ext ?_)
  match a with
  | ⟨0, _⟩ => show (m.val * 64 + (2 * f.val + n.val)) % 2 = n.val; omega
  | ⟨1, _⟩ => show (m.val * 64 + (2 * f.val + n.val)) / 64 = m.val; omega
  | ⟨2, _⟩ => show (m.val * 64 + (2 * f.val + n.val)) / 2 % 32 = f.val; omega

/-- The first product with L at (m, c): the sum over the nodes. -/
theorem v2_at (m : Fin 8192) (c : Fin 64) :
    val_main_v2 (F := Ideal) a0 a1 (ix2 m c) = ∑ j : Fin 8192, a1 (ix2 m j) * val_main_v1 (F := Ideal) a0 (ix2 j c) := by
  rw [val_main_v2_apply]
  refine Finset.sum_congr rfl fun j _ => ?_
  have el : lidx_main_v2 (ix2 m c) j = ix2 m j :=
    funext fun a => Fin.ext (by match a with | ⟨0, _⟩ => rfl | ⟨1, _⟩ => rfl)
  have er : ridx_main_v2 (ix2 m c) j = ix2 j c :=
    funext fun a => Fin.ext (by match a with | ⟨0, _⟩ => rfl | ⟨1, _⟩ => rfl)
  rw [el, er]

/-- The second product with L at (m, c). -/
theorem v3_at (m : Fin 8192) (c : Fin 64) :
    val_main_v3 (F := Ideal) a0 a1 (ix2 m c) = ∑ j : Fin 8192, a1 (ix2 m j) * val_main_v2 (F := Ideal) a0 a1 (ix2 j c) := by
  rw [val_main_v3_apply]
  refine Finset.sum_congr rfl fun j _ => ?_
  have el : lidx_main_v3 (ix2 m c) j = ix2 m j :=
    funext fun a => Fin.ext (by match a with | ⟨0, _⟩ => rfl | ⟨1, _⟩ => rfl)
  have er : ridx_main_v3 (ix2 m c) j = ix2 j c :=
    funext fun a => Fin.ext (by match a with | ⟨0, _⟩ => rfl | ⟨1, _⟩ => rfl)
  rw [el, er]

/-- The third term: twice the second product, less x0. -/
theorem v6_at (i : S8192x64.Idx) :
    val_main_v6 (F := Ideal) a0 a1 i = two * val_main_v3 (F := Ideal) a0 a1 i - val_main_v1 (F := Ideal) a0 i := by
  rw [val_main_v6_apply, val_main_v5_apply, val_main_v4_apply, val_main_cst_apply]
  rfl

/-- The stack of the three terms along a new leading axis, read at (k, m, c): term k at (m, c). -/
theorem v10_at (k : Fin 3) (m : Fin 8192) (c : Fin 64) :
    val_main_v10 (F := Ideal) a0 a1 (ix3 k m c) =
      if k.val = 0 then val_main_v1 (F := Ideal) a0 (ix2 m c)
      else if k.val = 1 then val_main_v2 (F := Ideal) a0 a1 (ix2 m c)
      else val_main_v6 (F := Ideal) a0 a1 (ix2 m c) := by
  unfold val_main_v10
  have hidx : idx_main_v7 (ix3 (0 : Fin 1) m c) = ix2 m c :=
    funext fun a => Fin.ext (by match a with | ⟨0, _⟩ => rfl | ⟨1, _⟩ => rfl)
  match k with
  | ⟨0, _⟩ =>
    rw [if_pos rfl]
    refine Eq.trans (concatenate_apply_piece (t := S3x8192x64) (0 : Fin 3) _ _ _ 0 (by simp) S1x8192x64 (val_main_v7 (F := Ideal) a0) rfl rfl 0 rfl
      (ix3 (0 : Fin 1) m c) ?_ ?_) ?_
    · intro b hb
      match b with
      | ⟨0, _⟩ => exact absurd rfl hb
      | ⟨1, _⟩ => rfl
      | ⟨2, _⟩ => rfl
    · rfl
    · rw [val_main_v7_apply, hidx]
  | ⟨1, _⟩ =>
    rw [if_neg (by simp), if_pos rfl]
    refine Eq.trans (concatenate_apply_piece (t := S3x8192x64) (0 : Fin 3) _ _ _ 1 (by simp) S1x8192x64 (val_main_v8 (F := Ideal) a0 a1) rfl rfl 1 rfl
      (ix3 (0 : Fin 1) m c) ?_ ?_) ?_
    · intro b hb
      match b with
      | ⟨0, _⟩ => exact absurd rfl hb
      | ⟨1, _⟩ => rfl
      | ⟨2, _⟩ => rfl
    · rfl
    · rw [val_main_v8_apply]; exact congrArg _ hidx
  | ⟨2, _⟩ =>
    rw [if_neg (by simp), if_neg (by simp)]
    refine Eq.trans (concatenate_apply_piece (t := S3x8192x64) (0 : Fin 3) _ _ _ 2 (by simp) S1x8192x64 (val_main_v9 (F := Ideal) a0 a1) rfl rfl 2 rfl
      (ix3 (0 : Fin 1) m c) ?_ ?_) ?_
    · intro b hb
      match b with
      | ⟨0, _⟩ => exact absurd rfl hb
      | ⟨1, _⟩ => rfl
      | ⟨2, _⟩ => rfl
    · rfl
    · rw [val_main_v9_apply]; exact congrArg _ hidx

/-- Row 8192n+m, column i of the re-laid stack: term i mod 3 at node m, column 2·(i/3)+n. -/
theorem v13_at (n : Fin 2) (m : Fin 8192) (i : Fin 96) :
    val_main_v13 (F := Ideal) a0 a1 (ix2 (row n m) i)
      = val_main_v10 (F := Ideal) a0 a1 (ix3 (kOf i) m (rcol (fOf i) n)) := by
  rw [val_main_v13_apply, val_main_v12_apply, val_main_v11_apply]
  have e13 : idx_main_v13 (ix2 (row n m) i) = ix4 n m (fOf i) (kOf i) := funext fun a => Fin.ext (by
    match a with
    | ⟨0, _⟩ => show ((8192 * n.val + m.val) * 96 + i.val) / 786432 = n.val; omega
    | ⟨1, _⟩ => show ((8192 * n.val + m.val) * 96 + i.val) / 96 % 8192 = m.val; omega
    | ⟨2, _⟩ => show ((8192 * n.val + m.val) * 96 + i.val) / 3 % 32 = i.val / 3; omega
    | ⟨3, _⟩ => show ((8192 * n.val + m.val) * 96 + i.val) % 3 = i.val % 3; omega)
  have e12 : idx_main_v12 (ix4 n m (fOf i) (kOf i)) = ix4 (kOf i) m (fOf i) n := funext fun a => Fin.ext (by
    match a with
    | ⟨0, _⟩ => rfl
    | ⟨1, _⟩ => rfl
    | ⟨2, _⟩ => rfl
    | ⟨3, _⟩ => rfl)
  have e11 : ∀ (k : Fin 3) (f : Fin 32), idx_main_v11 (ix4 k m f n) = ix3 k m (rcol f n) := fun k f =>
    funext fun a => Fin.ext (by
      match a with
      | ⟨0, _⟩ => show (((k.val * 8192 + m.val) * 32 + f.val) * 2 + n.val) / 524288 = k.val; omega
      | ⟨1, _⟩ => show (((k.val * 8192 + m.val) * 32 + f.val) * 2 + n.val) / 64 % 8192 = m.val; omega
      | ⟨2, _⟩ => show (((k.val * 8192 + m.val) * 32 + f.val) * 2 + n.val) % 64 = 2 * f.val + n.val; omega)
  rw [e13, e12, e11]

/-- The product with the packed weight at (r, o): the sum over the 96 packed columns. -/
theorem v14_at (r : Fin 16384) (o : Fin 32) :
    val_main_v14 (F := Ideal) a0 a1 a2 (ix2 r o)
      = ∑ i : Fin 96, val_main_v13 (F := Ideal) a0 a1 (ix2 r i) * a2 (ix2 i o) := by
  rw [val_main_v14_apply]
  refine Finset.sum_congr rfl fun i _ => ?_
  have el : lidx_main_v14 (ix2 r o) i = ix2 r i :=
    funext fun a => Fin.ext (by match a with | ⟨0, _⟩ => rfl | ⟨1, _⟩ => rfl)
  have er : ridx_main_v14 (ix2 r o) i = ix2 i o :=
    funext fun a => Fin.ext (by match a with | ⟨0, _⟩ => rfl | ⟨1, _⟩ => rfl)
  rw [el, er]

/-- The result at (n, m, o): row 8192n+m of the product, plus the bias at o. -/
theorem v18_at (n : Fin 2) (m : Fin 8192) (o : Fin 32) :
    val_main_v18 (F := Ideal) a0 a1 a2 a3 (ix3 n m o)
      = val_main_v14 (F := Ideal) a0 a1 a2 (ix2 (row n m) o) + a3 (ix1 o) := by
  rw [val_main_v18_apply, val_main_v17_apply, val_main_v16_apply, val_main_v15_apply]
  have e18 : idx_main_v18 (ix3 n m o) = ix2 (row n m) o := funext fun a => Fin.ext (by
    match a with
    | ⟨0, _⟩ => show ((n.val * 8192 + m.val) * 32 + o.val) / 32 = 8192 * n.val + m.val; omega
    | ⟨1, _⟩ => show ((n.val * 8192 + m.val) * 32 + o.val) % 32 = o.val; omega)
  have e15 : idx_main_v15 (idx_main_v16 (ix2 (row n m) o)) = ix1 o :=
    funext fun a => Fin.ext (by match a with | ⟨0, _⟩ => rfl)
  rw [e18, e15]
  rfl

/-- **The reference is the specification's reference arrangement** of the four argument arrays. -/
theorem ref_eq :
    val_main_v18 (F := Ideal) a0 a1 a2 a3
      = fun i => refF (fun n m f => a0 (ix3 n m f)) (fun m j => a1 (ix2 m j)) (fun i o => a2 (ix2 i o))
          (fun o => a3 (ix1 o)) (i 0) (i 1) (i 2) := by
  funext i
  obtain ⟨n, m, o, rfl⟩ : ∃ (n : Fin 2) (m : Fin 8192) (o : Fin 32), i = ix3 n m o := ⟨i 0, i 1, i 2, eq_ix3 i⟩
  show val_main_v18 (F := Ideal) a0 a1 a2 a3 (ix3 n m o) = refF _ _ _ _ n m o
  rw [v18_at, v14_at]
  unfold refF
  refine congrArg (· + a3 (ix1 o)) (Finset.sum_congr rfl fun i _ => ?_)
  refine congrArg (· * a2 (ix2 i o)) ?_
  rw [v13_at, v10_at]
  unfold Xk Xsel
  split_ifs with h0 h1
  · exact v1_at a0 m (fOf i) n
  · rw [v2_at]
    exact Finset.sum_congr rfl fun j _ => by rw [v1_at]
  · rw [v6_at, v3_at, v1_at]
    unfold X2 T X1
    refine congrArg (fun z => two * z - a0 (ix3 n m (fOf i))) (Finset.sum_congr rfl fun j _ => ?_)
    rw [v2_at]
    exact congrArg _ (Finset.sum_congr rfl fun j' _ => by rw [v1_at])

end Cert.Cheb.Ref
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.Law.lean ====
/-
  The algebraic law between the two arrangements, on real entries.

  Kernel arrangement: over the batch-major columns c = 32n'+f, the three products against the block-diagonal weights
  e⊗W0 − e⊗W2, e⊗W1 and 2·(e⊗W2). The identity e kills every column of another batch (0·a = 0 holds for every extended
  real), so each product collapses to a sum over the 32 features of batch n:
      Σ_f x·(W0 − W2)  +  Σ_f X1·W1  +  Σ_f T·(2·W2)  +  b.
  Reference arrangement: the packed sum over i = 3f+k splits into the features and the three taps,
      Σ_f (x·W0 + X1·W1 + (2·T − x)·W2)  +  b.
  The two sums agree by distributivity — which fails at the infinities of the extended reals (⊤ − ⊤ = ⊥), so the last
  step is taken in the reals: every entry of x, L and w is real, hence so are X1 = L·x and T = L·X1, the coercion is
  pushed outward through products, differences and finite sums, and the identity of real numbers is `ring` under Σ_f.
-/
import proofs.«165797_g43559558316210_cont_sun_m_1389_5_alg».proof.Proof.Spec
import proofs.«165797_g43559558316210_cont_sun_m_1389_5_alg».proof.Proof.LibRealEntries

noncomputable section

open scoped BigOperators

namespace Cert.Cheb

open Cert.LibRealEntries

/-! ## Coercion and finite sums -/

/-- The coercion of the reals commutes with finite sums. -/
theorem coe_sum {ι : Type*} (s : Finset ι) (g : ι → ℝ) : ∑ i ∈ s, (g i : EReal) = ((∑ i ∈ s, g i : ℝ) : EReal) := by
  classical
  refine Finset.induction_on s ?_ ?_
  · simp
  · intro a s ha ih
    rw [Finset.sum_insert ha, Finset.sum_insert ha, ih, EReal.coe_add]

theorem two_coe : two = ((2 : ℝ) : EReal) := by rw [two_eq]; norm_cast

/-! ## Re-indexing the packed axes -/

/-- A batch-major column is a (batch, feature) pair. -/
def colEquiv : Fin 2 × Fin 32 ≃ Fin 64 where
  toFun p := col p.1 p.2
  invFun c := (hi c, lo c)
  left_inv p := by simp
  right_inv c := col_hi_lo c

/-- A packed weight row is a (feature, tap) pair. -/
def rowEquiv : Fin 32 × Fin 3 ≃ Fin 96 where
  toFun p := wrow p.1 p.2
  invFun i := (fOf i, kOf i)
  left_inv p := by simp
  right_inv i := wrow_fOf_kOf i

theorem sum_cols (g : Fin 64 → EReal) : ∑ c : Fin 64, g c = ∑ n' : Fin 2, ∑ f : Fin 32, g (col n' f) := by
  rw [← Equiv.sum_comp colEquiv g, Fintype.sum_prod_type]; rfl

theorem sum_rows (g : Fin 96 → EReal) : ∑ i : Fin 96, g i = ∑ f : Fin 32, ∑ k : Fin 3, g (wrow f k) := by
  rw [← Equiv.sum_comp rowEquiv g, Fintype.sum_prod_type]; rfl

/-! ## The block-diagonal weights collapse -/

theorem e_self (n : Fin 2) : e n n = 1 := if_pos rfl
theorem e_ne {n' n : Fin 2} (h : n' ≠ n) : e n' n = 0 := if_neg h

/-- A product against a weight that vanishes off the diagonal block of batch n keeps the columns of batch n. -/
theorem sum_block (y : Fin 64 → EReal) (Wm : Fin 64 → Fin 64 → EReal) (V : Fin 32 → EReal) (n : Fin 2) (o : Fin 32)
    (hW : ∀ n' f, Wm (col n' f) (col n o) = if n' = n then V f else 0) :
    ∑ c : Fin 64, y c * Wm c (col n o) = ∑ f : Fin 32, y (col n f) * V f := by
  rw [sum_cols]
  simp only [hW]
  rw [Finset.sum_eq_single n]
  · simp
  · intro n' _ hne; simp [hne]
  · intro h; exact absurd (Finset.mem_univ n) h

section
variable (x : Fin 2 → Fin 8192 → Fin 32 → EReal) (L : Fin 8192 → Fin 8192 → EReal)
  (w : Fin 96 → Fin 32 → EReal) (b : Fin 32 → EReal)

theorem WA_block (n o) (n' f) : WA w (col n' f) (col n o) = if n' = n then w (wrow f 0) o - w (wrow f 2) o else 0 := by
  unfold WA kron; simp only [hi_col, lo_col]
  by_cases h : n' = n
  · subst h; simp [e_self]
  · simp [e_ne h, h]

theorem WB_block (n o) (n' f) : WB w (col n' f) (col n o) = if n' = n then w (wrow f 1) o else 0 := by
  unfold WB kron; simp only [hi_col, lo_col]
  by_cases h : n' = n
  · subst h; simp [e_self]
  · simp [e_ne h, h]

theorem WC_block (n o) (n' f) : WC w (col n' f) (col n o) = if n' = n then two * w (wrow f 2) o else 0 := by
  unfold WC kron; simp only [hi_col, lo_col]
  by_cases h : n' = n
  · subst h; simp [e_self]
  · simp [e_ne h, h]

/-- The kernel arrangement, collapsed to the features of batch n. -/
theorem kerF_collapse (n : Fin 2) (m : Fin 8192) (o : Fin 32) :
    kerF x L w b n m o =
      ((∑ f : Fin 32, x n m f * (w (wrow f 0) o - w (wrow f 2) o)) + (∑ f : Fin 32, X1 x L n m f * w (wrow f 1) o))
        + (∑ f : Fin 32, T x L n m f * (two * w (wrow f 2) o)) + b o := by
  unfold kerF kerD
  rw [sum_block _ _ _ n o (WA_block w n o), sum_block _ _ _ n o (WB_block w n o), sum_block _ _ _ n o (WC_block w n o)]
  simp only [x0k, x1k_eq, tk_eq, biasRow, hi_col, lo_col]

/-- The reference arrangement, split into features and taps. -/
theorem refF_split (n : Fin 2) (m : Fin 8192) (o : Fin 32) :
    refF x L w b n m o =
      (∑ f : Fin 32, (x n m f * w (wrow f 0) o + X1 x L n m f * w (wrow f 1) o
        + (two * T x L n m f - x n m f) * w (wrow f 2) o)) + b o := by
  unfold refF
  rw [sum_rows]
  refine congrArg (· + b o) (Finset.sum_congr rfl fun f _ => ?_)
  rw [Fin.sum_univ_three]
  simp only [Xk, fOf_wrow, kOf_wrow]
  rfl

end

/-! ## Distributivity, on real entries -/

/-- The two collapsed sums agree when every entry is real. -/
theorem combine (a u t p q r : Fin 32 → EReal) (ha : ∀ f, IsReal (a f)) (hu : ∀ f, IsReal (u f)) (ht : ∀ f, IsReal (t f))
    (hp : ∀ f, IsReal (p f)) (hq : ∀ f, IsReal (q f)) (hr : ∀ f, IsReal (r f)) :
    ((∑ f : Fin 32, a f * (p f - r f)) + (∑ f : Fin 32, u f * q f)) + (∑ f : Fin 32, t f * (two * r f))
      = ∑ f : Fin 32, (a f * p f + u f * q f + (two * t f - a f) * r f) := by
  choose a' ha' using ha
  choose u' hu' using hu
  choose t' ht' using ht
  choose p' hp' using hp
  choose q' hq' using hq
  choose r' hr' using hr
  simp only [ha', hu', ht', hp', hq', hr', two_coe, ← EReal.coe_mul, ← EReal.coe_sub, ← EReal.coe_add, coe_sum]
  refine congrArg _ ?_
  simp only [← Finset.sum_add_distrib]
  exact Finset.sum_congr rfl fun f _ => by ring

/-- **The law.** On real entries of x, L and the weight, the kernel's arrangement is the reference's. -/
theorem law (x : Fin 2 → Fin 8192 → Fin 32 → EReal) (L : Fin 8192 → Fin 8192 → EReal)
    (w : Fin 96 → Fin 32 → EReal) (b : Fin 32 → EReal)
    (hx : ∀ n m f, IsReal (x n m f)) (hL : ∀ m j, IsReal (L m j)) (hw : ∀ i o, IsReal (w i o))
    (n : Fin 2) (m : Fin 8192) (o : Fin 32) : kerF x L w b n m o = refF x L w b n m o := by
  have hX1 : ∀ n m f, IsReal (X1 x L n m f) := fun n m f =>
    IsReal.sum _ _ fun j _ => (hL m j).mul (hx n j f)
  have hT : ∀ n m f, IsReal (T x L n m f) := fun n m f =>
    IsReal.sum _ _ fun j _ => (hL m j).mul (hX1 n j f)
  rw [kerF_collapse, refF_split]
  exact congrArg (· + b o) (combine (fun f => x n m f) (fun f => X1 x L n m f) (fun f => T x L n m f)
    (fun f => w (wrow f 0) o) (fun f => w (wrow f 1) o) (fun f => w (wrow f 2) o)
    (fun f => hx n m f) (fun f => hX1 n m f) (fun f => hT n m f) (fun f => hw _ o) (fun f => hw _ o) (fun f => hw _ o))

end Cert.Cheb
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«165797_g43559558316210_cont_sun_m_1389_5_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Finite.lean ====
/-
  The precondition says every input entry is a real number.

  The printed predicate is the conjunction, over the four argument arrays, of "every |entry| is below +∞". A conjunction
  of one-bit words is 1 exactly when each is, and each test, read at the extended reals, says that every entry of its
  array is neither infinity: it is the image of a real. The reading is stated for the predicate as a function of four
  arrays, so it applies to the argument buffers of whichever program the precondition is taken of.
-/
import proofs.«165797_g43559558316210_cont_sun_m_1389_5_alg».proof.Proof.Gen.Pre_finite_inputs
import proofs.«165797_g43559558316210_cont_sun_m_1389_5_alg».proof.Proof.LibFinitePre

noncomputable section

namespace Cert.Cheb

open Idealize.ShloMosaic Idealize.ShloMosaic.ValueIdx Cert.LibRealEntries Cert.LibFinitePre
open Cert.Pre_finite_inputs Cert.Pre_finite_inputs.Gen

/-- If the finiteness predicate of four arrays is all ones, every entry of each array is real. -/
theorem real_of_finite (a0 : FVec Ideal S2x8192x32 .f32) (a1 : FVec Ideal S8192x8192 .f32)
    (a2 : FVec Ideal S96x32 .f32) (a3 : FVec Ideal S32 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Cheb
-- ==== Proof.Bridge.lean ====
/-
  Under the precondition, the reference's result is the kernel's arrangement of the same four arrays.

  The reference's term is the reference arrangement of its arguments (read index by index); the precondition makes every
  entry of x, L and the weight real; on real entries the reference arrangement equals the kernel arrangement.
-/
import proofs.«165797_g43559558316210_cont_sun_m_1389_5_alg».proof.Proof.RefSide
import proofs.«165797_g43559558316210_cont_sun_m_1389_5_alg».proof.Proof.Law
import proofs.«165797_g43559558316210_cont_sun_m_1389_5_alg».proof.Proof.Finite

noncomputable section

namespace Cert.Cheb

open Idealize.ShloMosaic Idealize.ShloMosaic.ValueIdx Cert.ReferenceIdeal

/-- The kernel's arrangement of four argument arrays, as one array indexed like the result. -/
def kerArr (a0 : (⟨S2x8192x32, .f32⟩ : BufTy).Contents (Elt Ideal)) (a1 : (⟨S8192x8192, .f32⟩ : BufTy).Contents (Elt Ideal))
    (a2 : (⟨S96x32, .f32⟩ : BufTy).Contents (Elt Ideal)) (a3 : (⟨S32, .f32⟩ : BufTy).Contents (Elt Ideal)) :
    (⟨S2x8192x32, .f32⟩ : BufTy).Contents (Elt Ideal) :=
  fun i => kerF (fun n m f => a0 (ix3 n m f)) (fun m j => a1 (ix2 m j)) (fun i o => a2 (ix2 i o))
    (fun o => a3 (ix1 o)) (i 0) (i 1) (i 2)

/-- If the finiteness predicate of the four arrays is all ones, the reference's result term is the kernel's arrangement. -/
theorem reference_eq_kerArr (a0 : (⟨S2x8192x32, .f32⟩ : BufTy).Contents (Elt Ideal))
    (a1 : (⟨S8192x8192, .f32⟩ : BufTy).Contents (Elt Ideal)) (a2 : (⟨S96x32, .f32⟩ : BufTy).Contents (Elt Ideal))
    (a3 : (⟨S32, .f32⟩ : BufTy).Contents (Elt Ideal))
    (h : Cert.Pre_finite_inputs.fn (F := Ideal) a0 a1 a2 a3 = fun _ => 1#1) :
    Cert.ReferenceIdeal.Read.val_main_v18 (F := Ideal) a0 a1 a2 a3 = kerArr a0 a1 a2 a3 := by
  obtain ⟨h0, h1, h2, _⟩ := real_of_finite a0 a1 a2 a3 h
  rw [Ref.ref_eq]
  funext i
  exact (law _ _ _ _ (fun n m f => h0 _) (fun m j => h1 _) (fun i o => h2 _) _ _ _).symm

end Cert.Cheb
-- ==== Proof.BlocksToArray0.lean ====
/-
  Pass 1, from blocks to the array.

  Point t of the 32-point grid writes back rows 256·t … 256·t+255 of the output; the block it writes is the product of
  the same rows of L (the first window moves with the output on the row axis) with the whole signal matrix (the second
  window never moves). So the block written at t is block t of ONE function of the two input arrays,
      G(i) = Σ_k L(i₀, k) · X(k, i₁),
  and since the 32 row blocks cover all 8192 rows, the output array ends holding G.
-/
import proofs.«165797_g43559558316210_cont_sun_m_1389_5_alg».proof.Proof.IRegion0
import proofs.«165797_g43559558316210_cont_sun_m_1389_5_alg».proof.Proof.Payload0
import Idealize.ShloMosaic.Lib.Pipeline.Value
import Idealize.ShloMosaic.Lib.ValueIdx

set_option maxRecDepth 16384

noncomputable section

namespace Cert.KernelIdeal.Pass

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when pass 1 is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The operator L as pass 1 finds it, as a plain array of extended reals. -/
abbrev Lin (c : Dev nD) : S8192x8192.Idx → EReal := V c main_arg1
/-- The batch-major signal matrix as pass 1 finds it, as a plain array of extended reals. -/
abbrev Xin (c : Dev nD) : S8192x64.Idx → EReal := V c main_v2

/-- What the output array ends holding: the product of L with the signal matrix, entry by entry. -/
def G0 (c : Dev nD) : S8192x64.Idx → EReal :=
  fun i => ∑ k : Fin 8192, Lin V c (ix2 (i 0) k)
    * Xin V c (ix2 k (i 1))

/-- The index maps, decided over the grid: the rows of L move with the output's rows, nothing else moves. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row block is some point's. -/
theorem idx_onto0 : ∀ (q0 : Fin 32), ∃ t : Fin cfg0.N, win0_2.index t = ![q0.val, 0] :=
  (by decide +kernel : ∀ (q0 : Fin 32), ∃ t : Fin grid0.N, win0_2.index t = ![q0.val, 0])

/-- What point t writes back is block t of G0. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz0]
  simp only [View.ld_unit_zero (S := S256x8192) hz0, View.ld_unit_zero (S := S8192x64) hz0]
  obtain ⟨e0, e1, e2, e3, e4, e5⟩ := idx_facts0 t
  funext j
  obtain ⟨p, e, rfl⟩ : ∃ (p : Fin 256) (e : Fin 64), j = ix2 p e := ⟨j 0, j 1, eq_ix2 j⟩
  show k0_pay1 (F := Ideal) (iblk0 V c 0 t) (iblk0 V c 1 t) (ix2 p e)
    = G0 V c (((cfg0.win 2).blk t).view.emb (ix2 p e))
  refine (KValue.k0_pay1_apply (iblk0 V c 0 t) (iblk0 V c 1 t) p e).trans ?_
  unfold G0
  refine Finset.sum_congr rfl fun k _ => ?_
  show Lin V c (((cfg0.win 0).blk t).view.emb (ix2 p k))
      * Xin V c (((cfg0.win 1).blk t).view.emb (ix2 k e))
    = Lin V c (ix2 ((((cfg0.win 2).blk t).view.emb (ix2 p e)) 0) k)
      * Xin V c (ix2 k ((((cfg0.win 2).blk t).view.emb (ix2 p e)) 1))
  have h0 : ((cfg0.win 0).blk t).view.emb (ix2 p k) = ix2 ((((cfg0.win 2).blk t).view.emb (ix2 p e)) 0) k := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * k.val = k.val; omega
  have h1 : ((cfg0.win 1).blk t).view.emb (ix2 k e) = ix2 k ((((cfg0.win 2).blk t).view.emb (ix2 p e)) 1) := by
    funext a; apply Fin.ext
    match a with
    | ⟨0, _⟩ => show win0_1.index t (0 : Fin 2) * 8192 + 1 * k.val = k.val; omega
    | ⟨1, _⟩ => show win0_1.index t (1 : Fin 2) * 64 + 1 * e.val = win0_2.index t (1 : Fin 2) * 64 + 1 * e.val; omega
  rw [h0, h1]
  rfl

/-- An index of the array is in point t's block iff each coordinate is in the block's range on its axis. -/
theorem mem_blk0 (t : Fin cfg0.N) (i : S8192x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v26).slice (win0_2.rect t)).set ↔ _
  rw [View.set_slice_whole, Rect.mem_set_unit]
  exact Iff.rfl

/-- The 32 row blocks cover the array: row r is in the block of the point whose row-block index is r / 256. -/
theorem cover0 (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := idx_onto0 ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

/-- **The array after pass 1**: the product of L with the signal matrix. -/
theorem final0 (c : Dev nD) : (dat0 (F := Ideal) V c).arrAt 2 cfg0.N = G0 V c :=
  (dat0 (F := Ideal) V c).arrAt_eq_of_cover 2 (G0 V c) (fun t _ => flushed0_eq V c t) cover0

/-- G0 at an index. -/
theorem G0_apply (c : Dev nD) (i : S8192x64.Idx) :
    G0 V c i = ∑ k : Fin 8192, Lin V c (ix2 (i 0) k)
      * Xin V c (ix2 k (i 1)) := rfl

end Cert.KernelIdeal.Pass
-- ==== Proof.BlocksToArray1.lean ====
/-
  From blocks to the array for the second pass. The pass runs over 32 grid points; point t is handed rows
  256·t … 256·t + 255 of the row-blocked arrays and the whole of the others, and writes back rows 256·t … 256·t + 255
  of the output. Each input block is read where the output block's rectangle says (a block's coordinate is its block
  index times the block size plus the coordinate inside the block), so what point t writes back is block t of ONE
  function of the arrays the pass finds; the 32 row blocks cover the [8192, 64] output (row r lies in block r / 256);
  hence the output array ends holding that function.
-/
import proofs.«165797_g43559558316210_cont_sun_m_1389_5_alg».proof.Proof.IRegion1
import proofs.«165797_g43559558316210_cont_sun_m_1389_5_alg».proof.Proof.Payload1
import Idealize.ShloMosaic.Lib.Pipeline.Value

noncomputable section

namespace Cert.KernelIdeal.Pass

open Cert.KernelIdeal Cert.KernelIdeal.Gen Cert.KernelIdeal.KValue
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The value of pass 2 at an entry -/

/-- Pass 2 at row r, column d, of the arrays it reads — the matrix `a1`, the re-laid input `x0`, the first-order array
    `x1`, the three right factors and the bias row —, in the payload's association:
    ((Σ x0·wa + Σ x1·wb) + Σ (Σ a1·x1)·wc) + bias. -/
def pass2At (a1 : S8192x8192.Idx → EReal) (x0 x1 : S8192x64.Idx → EReal) (wa wb wc : S64x64.Idx → EReal)
    (br : S1x64.Idx → EReal) (r : Fin 8192) (d : Fin 64) : EReal :=
  ((∑ cc : Fin 64, x0 (ix2 r cc) * wa (ix2 cc d)) + (∑ cc : Fin 64, x1 (ix2 r cc) * wb (ix2 cc d)))
    + (∑ cc : Fin 64, (∑ k : Fin 8192, a1 (ix2 r k) * x1 (ix2 k cc)) * wc (ix2 cc d))
    + br (ix2 (0 : Fin 1) d)

/-- The payload on blocks that are row p ↦ row r of the row-blocked arrays and the whole of the others is pass 2 at
    (r, d). -/
theorem pass2_point (a1 : S8192x8192.Idx → EReal) (x0 x1 : S8192x64.Idx → EReal) (wa wb wc : S64x64.Idx → EReal)
    (br : S1x64.Idx → EReal) (v0 : Vec Ideal S256x8192 .f32) (v2 : Vec Ideal S8192x64 .f32) (v6 : Vec Ideal S256x64 .f32)
    (v8 : Vec Ideal S64x64 .f32) (v11 : Vec Ideal S256x64 .f32) (v13 : Vec Ideal S64x64 .f32)
    (v17 : Vec Ideal S64x64 .f32) (v21 : Vec Ideal S1x64 .f32) (p : Fin 256) (d : Fin 64) (r : Fin 8192)
    (h0 : ∀ k : Fin 8192, v0 (ix2 p k) = a1 (ix2 r k))
    (h2 : ∀ (j : Fin 8192) (cc : Fin 64), v2 (ix2 j cc) = x1 (ix2 j cc))
    (h6 : ∀ cc : Fin 64, v6 (ix2 p cc) = x0 (ix2 r cc))
    (h8 : ∀ cc : Fin 64, v8 (ix2 cc d) = wa (ix2 cc d))
    (h11 : ∀ cc : Fin 64, v11 (ix2 p cc) = x1 (ix2 r cc))
    (h13 : ∀ cc : Fin 64, v13 (ix2 cc d) = wb (ix2 cc d))
    (h17 : ∀ cc : Fin 64, v17 (ix2 cc d) = wc (ix2 cc d))
    (h21 : v21 (ix2 (0 : Fin 1) d) = br (ix2 (0 : Fin 1) d)) :
    k1_pay1 (F := Ideal) v0 v2 v6 v8 v11 v13 v17 v21 (ix2 p d) = pass2At a1 x0 x1 wa wb wc br r d := by
  rw [k1_pay1_apply, h21]
  unfold pass2At
  simp only [h0, h2, h6, h8, h11, h13, h17]

/-! ## The windows' index maps over the grid -/

theorem hz1 : (![0, 0] : Fin 2 → Nat) = fun _ => 0 := funext fun a => by fin_cases a <;> rfl

/-- The printed index maps, decided over the 32 grid points: the row-blocked windows (the matrix, the re-laid input, the
    first-order array by rows, the output) sit at block row t and block column 0; the whole-array windows at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem lt32 (t : Fin cfg1.N) : t.val < 32 := lt_of_lt_of_eq t.isLt Gen.N_1

/-- Row p of the block of rows at grid point t. -/
abbrev rowAt (t : Fin cfg1.N) (p : Fin 256) : Fin 8192 := ⟨256 * t.val + p.val, by have := lt32 t; omega⟩

/-! ## Each input window's block at a point, read where the output's rectangle says -/

/-- The matrix's block at point t, at (p, k): the matrix at (256·t + p, k). -/
theorem iblk1_0_apply (c : Dev nD) (t : Fin cfg1.N) (p : Fin 256) (k : Fin 8192) :
    iblk1 V c 0 t (ix2 p k) = (V c main_arg1 : S8192x8192.Idx → EReal) (ix2 (rowAt t p) k) := by
  obtain ⟨e0, e1, -⟩ := idx_facts1 t
  unfold iblk1
  show (V c main_arg1 : S8192x8192.Idx → EReal) (((cfg1.win 0).blk t).view.emb (ix2 p k)) = _
  refine congrArg _ (funext fun a => Fin.ext ?_)
  match a with
  | ⟨0, _⟩ => show win1_0.index t (0 : Fin 2) * 256 + 1 * p.val = 256 * t.val + p.val; omega
  | ⟨1, _⟩ => show win1_0.index t (1 : Fin 2) * 8192 + 1 * k.val = k.val; omega

/-- The whole first-order array's block at any point is the array. -/
theorem iblk1_1_apply (c : Dev nD) (t : Fin cfg1.N) (j : Fin 8192) (cc : Fin 64) :
    iblk1 V c 1 t (ix2 j cc) = (V c main_v26 : S8192x64.Idx → EReal) (ix2 j cc) := by
  obtain ⟨-, -, e0, e1, -⟩ := idx_facts1 t
  unfold iblk1
  show (V c main_v26 : S8192x64.Idx → EReal) (((cfg1.win 1).blk t).view.emb (ix2 j cc)) = _
  refine congrArg _ (funext fun a => Fin.ext ?_)
  match a with
  | ⟨0, _⟩ => show win1_1.index t (0 : Fin 2) * 8192 + 1 * j.val = j.val; omega
  | ⟨1, _⟩ => show win1_1.index t (1 : Fin 2) * 64 + 1 * cc.val = cc.val; omega

/-- The re-laid input's block at point t, at (p, cc): the array at (256·t + p, cc). -/
theorem iblk1_2_apply (c : Dev nD) (t : Fin cfg1.N) (p : Fin 256) (cc : Fin 64) :
    iblk1 V c 2 t (ix2 p cc) = (V c main_v1 : S8192x64.Idx → EReal) (ix2 (rowAt t p) cc) := by
  obtain ⟨-, -, -, -, e0, e1, -⟩ := idx_facts1 t
  unfold iblk1
  show (V c main_v1 : S8192x64.Idx → EReal) (((cfg1.win 2).blk t).view.emb (ix2 p cc)) = _
  refine congrArg _ (funext fun a => Fin.ext ?_)
  match a with
  | ⟨0, _⟩ => show win1_2.index t (0 : Fin 2) * 256 + 1 * p.val = 256 * t.val + p.val; omega
  | ⟨1, _⟩ => show win1_2.index t (1 : Fin 2) * 64 + 1 * cc.val = cc.val; omega

/-- The first-order array's row block at point t, at (p, cc): the array at (256·t + p, cc). -/
theorem iblk1_3_apply (c : Dev nD) (t : Fin cfg1.N) (p : Fin 256) (cc : Fin 64) :
    iblk1 V c 3 t (ix2 p cc) = (V c main_v26 : S8192x64.Idx → EReal) (ix2 (rowAt t p) cc) := by
  obtain ⟨-, -, -, -, -, -, e0, e1, -⟩ := idx_facts1 t
  unfold iblk1
  show (V c main_v26 : S8192x64.Idx → EReal) (((cfg1.win 3).blk t).view.emb (ix2 p cc)) = _
  refine congrArg _ (funext fun a => Fin.ext ?_)
  match a with
  | ⟨0, _⟩ => show win1_3.index t (0 : Fin 2) * 256 + 1 * p.val = 256 * t.val + p.val; omega
  | ⟨1, _⟩ => show win1_3.index t (1 : Fin 2) * 64 + 1 * cc.val = cc.val; omega

/-- The first right factor's block at any point is the array. -/
theorem iblk1_4_apply (c : Dev nD) (t : Fin cfg1.N) (cc d : Fin 64) :
    iblk1 V c 4 t (ix2 cc d) = (V c main_v19 : S64x64.Idx → EReal) (ix2 cc d) := by
  obtain ⟨-, -, -, -, -, -, -, -, e0, e1, -⟩ := idx_facts1 t
  unfold iblk1
  show (V c main_v19 : S64x64.Idx → EReal) (((cfg1.win 4).blk t).view.emb (ix2 cc d)) = _
  refine congrArg _ (funext fun a => Fin.ext ?_)
  match a with
  | ⟨0, _⟩ => show win1_4.index t (0 : Fin 2) * 64 + 1 * cc.val = cc.val; omega
  | ⟨1, _⟩ => show win1_4.index t (1 : Fin 2) * 64 + 1 * d.val = d.val; omega

/-- The second right factor's block at any point is the array. -/
theorem iblk1_5_apply (c : Dev nD) (t : Fin cfg1.N) (cc d : Fin 64) :
    iblk1 V c 5 t (ix2 cc d) = (V c main_v15 : S64x64.Idx → EReal) (ix2 cc d) := by
  obtain ⟨-, -, -, -, -, -, -, -, -, -, e0, e1, -⟩ := idx_facts1 t
  unfold iblk1
  show (V c main_v15 : S64x64.Idx → EReal) (((cfg1.win 5).blk t).view.emb (ix2 cc d)) = _
  refine congrArg _ (funext fun a => Fin.ext ?_)
  match a with
  | ⟨0, _⟩ => show win1_5.index t (0 : Fin 2) * 64 + 1 * cc.val = cc.val; omega
  | ⟨1, _⟩ => show win1_5.index t (1 : Fin 2) * 64 + 1 * d.val = d.val; omega

/-- The third right factor's block at any point is the array. -/
theorem iblk1_6_apply (c : Dev nD) (t : Fin cfg1.N) (cc d : Fin 64) :
    iblk1 V c 6 t (ix2 cc d) = (V c main_v21 : S64x64.Idx → EReal) (ix2 cc d) := by
  obtain ⟨-, -, -, -, -, -, -, -, -, -, -, -, e0, e1, -⟩ := idx_facts1 t
  unfold iblk1
  show (V c main_v21 : S64x64.Idx → EReal) (((cfg1.win 6).blk t).view.emb (ix2 cc d)) = _
  refine congrArg _ (funext fun a => Fin.ext ?_)
  match a with
  | ⟨0, _⟩ => show win1_6.index t (0 : Fin 2) * 64 + 1 * cc.val = cc.val; omega
  | ⟨1, _⟩ => show win1_6.index t (1 : Fin 2) * 64 + 1 * d.val = d.val; omega

/-- The bias row's block at any point is the row. -/
theorem iblk1_7_apply (c : Dev nD) (t : Fin cfg1.N) (u : Fin 1) (d : Fin 64) :
    iblk1 V c 7 t (ix2 u d) = (V c main_v25 : S1x64.Idx → EReal) (ix2 u d) := by
  obtain ⟨-, -, -, -, -, -, -, -, -, -, -, -, -, -, e0, e1, -⟩ := idx_facts1 t
  unfold iblk1
  show (V c main_v25 : S1x64.Idx → EReal) (((cfg1.win 7).blk t).view.emb (ix2 u d)) = _
  refine congrArg _ (funext fun a => Fin.ext ?_)
  match a with
  | ⟨0, _⟩ => show win1_7.index t (0 : Fin 2) * 1 + 1 * u.val = u.val; omega
  | ⟨1, _⟩ => show win1_7.index t (1 : Fin 2) * 64 + 1 * d.val = d.val; omega

/-- The output's block at point t puts (p, d) at (256·t + p, d) of the array. -/
theorem emb1_8 (t : Fin cfg1.N) (p : Fin 256) (d : Fin 64) :
    ((cfg1.win 8).blk t).view.emb (ix2 p d) = (ix2 (rowAt t p) d : S8192x64.Idx) := by
  obtain ⟨-, -, -, -, -, -, -, -, -, -, -, -, -, -, -, -, e0, e1⟩ := idx_facts1 t
  funext a; apply Fin.ext
  match a with
  | ⟨0, _⟩ => show win1_8.index t (0 : Fin 2) * 256 + 1 * p.val = 256 * t.val + p.val; omega
  | ⟨1, _⟩ => show win1_8.index t (1 : Fin 2) * 64 + 1 * d.val = d.val; omega

/-! ## What the output array ends holding -/

/-- The [8192, 64] array pass 2 leaves, as ONE function of the arrays it finds. -/
def G1 (c : Dev nD) : S8192x64.Idx → EReal := fun i =>
  pass2At (V c main_arg1) (V c main_v1) (V c main_v26) (V c main_v19) (V c main_v15) (V c main_v21) (V c main_v25) (i 0) (i 1)

/-- WHAT POINT t WRITES BACK is block t of that function. -/
theorem flushed1_8_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz1]
  simp only [View.ld_unit_zero (S := S256x8192) hz1, View.ld_unit_zero (S := S8192x64) hz1, View.ld_unit_zero (S := S256x64) hz1,
    View.ld_unit_zero (S := S64x64) hz1, View.ld_unit_zero (S := S1x64) hz1]
  funext j
  obtain ⟨p, d, rfl⟩ : ∃ (p : Fin 256) (d : Fin 64), j = ix2 p d := ⟨j 0, j 1, @eq_ix2 256 64 j⟩
  show k1_pay1 (F := Ideal) (iblk1 V c 0 t) (iblk1 V c 1 t) (iblk1 V c 2 t) (iblk1 V c 4 t) (iblk1 V c 3 t) (iblk1 V c 5 t)
      (iblk1 V c 6 t) (iblk1 V c 7 t) (ix2 p d) = G1 V c (((cfg1.win 8).blk t).view.emb (ix2 p d))
  rw [emb1_8 t p d]
  exact pass2_point (V c main_arg1) (V c main_v1) (V c main_v26) (V c main_v19) (V c main_v15) (V c main_v21) (V c main_v25)
    (iblk1 V c 0 t) (iblk1 V c 1 t) (iblk1 V c 2 t) (iblk1 V c 4 t) (iblk1 V c 3 t) (iblk1 V c 5 t) (iblk1 V c 6 t)
    (iblk1 V c 7 t) p d (rowAt t p)
    (fun k => iblk1_0_apply V c t p k) (fun j cc => iblk1_1_apply V c t j cc) (fun cc => iblk1_2_apply V c t p cc)
    (fun cc => iblk1_4_apply V c t cc d) (fun cc => iblk1_3_apply V c t p cc) (fun cc => iblk1_5_apply V c t cc d)
    (fun cc => iblk1_6_apply V c t cc d) (iblk1_7_apply V c t 0 d)

/-- An index of the array is in point t's block iff each coordinate is in the block's range on its axis. -/
theorem mem_blk1_8 (t : Fin cfg1.N) (i : S8192x64.Idx) :
    i ∈ ((cfg1.win 8).blk t).view.set ↔ ∀ a : Fin 2, win1_8.index t a * S256x64.size a ≤ (i a).val
      ∧ (i a).val < win1_8.index t a * S256x64.size a + S256x64.size a := by
  show i ∈ ((View.whole main_v27).slice (win1_8.rect t)).set ↔ _
  rw [View.set_slice_whole, Rect.mem_set_unit]
  exact Iff.rfl

/-- Every index of the array is in the block of the point that holds its row: row r is in block r / 256. -/
theorem cover1_8_arr (i : S8192x64.Idx) :
    ∃ t : Fin cfg1.N, (cfg1.win 8).flush t = true ∧ i ∈ ((cfg1.win 8).blk t).view.set := by
  have hi0 : (i 0).val < 8192 := (i 0).isLt
  have hi1 : (i 1).val < 64 := (i 1).isLt
  obtain ⟨t, ht⟩ : ∃ t : Fin cfg1.N, t.val = (i 0).val / 256 :=
    ⟨⟨(i 0).val / 256, by rw [show cfg1.N = 32 from Gen.N_1]; omega⟩, rfl⟩
  obtain ⟨-, -, -, -, -, -, -, -, -, -, -, -, -, -, -, -, e0, e1⟩ := idx_facts1 t
  refine ⟨t, flush1_8 t, ?_⟩
  rw [mem_blk1_8]
  intro a
  match a with
  | ⟨0, _⟩ =>
    show win1_8.index t (0 : Fin 2) * 256 ≤ (i 0).val ∧ (i 0).val < win1_8.index t (0 : Fin 2) * 256 + 256
    omega
  | ⟨1, _⟩ =>
    show win1_8.index t (1 : Fin 2) * 64 ≤ (i 1).val ∧ (i 1).val < win1_8.index t (1 : Fin 2) * 64 + 64
    omega

/-- THE ARRAY after pass 2: at every index, pass 2's value of the arrays the pass finds. -/
theorem final1 (c : Dev nD) : (dat1 (F := Ideal) V c).arrAt 8 cfg1.N = G1 V c :=
  (dat1 V c).arrAt_eq_of_cover 8 (G1 V c) (fun t _ => flushed1_8_eq V c t) cover1_8_arr

/-- The same, read at an index. -/
theorem final1_apply (c : Dev nD) (r : Fin 8192) (d : Fin 64) :
    (dat1 (F := Ideal) V c).arrAt 8 cfg1.N (ix2 r d)
      = pass2At (V c main_arg1) (V c main_v1) (V c main_v26) (V c main_v19) (V c main_v15) (V c main_v21) (V c main_v25) r d := by
  rw [final1]
  rfl

end Cert.KernelIdeal.Pass

end
-- ==== Proof.KernelResult.lean ====
/-
  What the idealized kernel returns, index by index. Read back through the run's valuations: the result is the final
  re-layout of pass 2's output array; pass 2's output at row r and batch-major column d is
      Σ_c x0(r,c)·W_A(c,d) + Σ_c (L·x0)(r,c)·W_B(c,d) + Σ_c (L·(L·x0))(r,c)·W_C(c,d) + bias(d)
  of the arrays pass 2 found — the host-built signal matrix, block-diagonal weights and bias row, and pass 1's output
  L·x0 —, which is the specification's kernel-side formula of the four arguments.
-/
import proofs.«165797_g43559558316210_cont_sun_m_1389_5_alg».proof.Proof.IRun
import proofs.«165797_g43559558316210_cont_sun_m_1389_5_alg».proof.Proof.KernelSpec
import proofs.«165797_g43559558316210_cont_sun_m_1389_5_alg».proof.Proof.Bridge
import proofs.«165797_g43559558316210_cont_sun_m_1389_5_alg».proof.Proof.BlocksToArray0
import proofs.«165797_g43559558316210_cont_sun_m_1389_5_alg».proof.Proof.BlocksToArray1

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KValue Cert.Cheb
open Idealize.ShloMosaic.ValueIdx
open Idealize.ShloMosaic.StableHlo (after)
open scoped BigOperators

variable (m : (ℓ : Loc nD τ sig) → Buf (Elt Ideal) ℓ) (c : Dev nD)

/-! ## What pass 2 finds in its arrays -/

theorem E8_v1 : E8 m c main_v1 = V7 m c main_v1 := W8_of_ne m c main_v1 (by decide)
theorem E8_v19 : E8 m c main_v19 = V7 m c main_v19 := W8_of_ne m c main_v19 (by decide)
theorem E8_v15 : E8 m c main_v15 = V7 m c main_v15 := W8_of_ne m c main_v15 (by decide)
theorem E8_v21 : E8 m c main_v21 = V7 m c main_v21 := W8_of_ne m c main_v21 (by decide)
theorem E8_v25 : E8 m c main_v25 = V7 m c main_v25 := W8_of_ne m c main_v25 (by decide)
theorem E8_arg1 : E8 m c main_arg1 = V7 m c main_arg1 :=
  (W8_arr m c 0).trans (((dat0 (E7 m) c).arrAt_in 0 rfl _).trans (A_eq0 (E7 m) c 0))
theorem E8_v26 : E8 m c main_v26 = (dat0 (E7 m) c).arrAt 2 cfg0.N := W8_arr m c 2

/-- Pass 1's output is the first-order matrix `L·x0`. -/
theorem E8_v26_apply (j : Fin 8192) (cc : Fin 64) :
    (E8 m c main_v26 : S8192x64.Idx → EReal) (ix2 j cc) = x1k (xOf m c) (LOf m c) j cc := by
  refine (congrFun ((E8_v26 m c).trans (final0 (E7 m) c)) (ix2 j cc)).trans ?_
  show ∑ k : Fin 8192, Lin (E7 m) c (ix2 j k) * Xin (E7 m) c (ix2 k cc) = _
  unfold x1k
  exact Finset.sum_congr rfl fun k _ => congrArg₂ (· * ·) (V7_arg1_L m c j k) (V7_v2_x0k m c k cc)

/-- Pass 2's output array, entry by entry. -/
theorem W9_v27_apply (r : Fin 8192) (d : Fin 64) :
    (W9 m c (main_v27 : DevRef τ sig) : S8192x64.Idx → EReal) (ix2 r d) = kerD (xOf m c) (LOf m c) (wOf m c) (bOf m c) r d := by
  refine (congrFun (W9_out m c) (ix2 r d)).trans ((final1_apply (E8 m) c r d).trans ?_)
  have h1 : ∀ cc : Fin 64, (E8 m c main_v1 : S8192x64.Idx → EReal) (ix2 r cc) = x0k (xOf m c) r cc :=
    fun cc => (congrFun (E8_v1 m c) _).trans (V7_v1_x0k m c r cc)
  have h19 : ∀ cc : Fin 64, (E8 m c main_v19 : S64x64.Idx → EReal) (ix2 cc d) = WA (wOf m c) cc d :=
    fun cc => (congrFun (E8_v19 m c) _).trans (V7_v19_WA m c cc d)
  have h15 : ∀ cc : Fin 64, (E8 m c main_v15 : S64x64.Idx → EReal) (ix2 cc d) = WB (wOf m c) cc d :=
    fun cc => (congrFun (E8_v15 m c) _).trans (V7_v15_WB m c cc d)
  have h21 : ∀ cc : Fin 64, (E8 m c main_v21 : S64x64.Idx → EReal) (ix2 cc d) = WC (wOf m c) cc d :=
    fun cc => (congrFun (E8_v21 m c) _).trans (V7_v21_WC m c cc d)
  have hL : ∀ k : Fin 8192, (E8 m c main_arg1 : S8192x8192.Idx → EReal) (ix2 r k) = LOf m c r k :=
    fun k => (congrFun (E8_arg1 m c) _).trans (V7_arg1_L m c r k)
  have h26 : ∀ (j : Fin 8192) (cc : Fin 64), (E8 m c main_v26 : S8192x64.Idx → EReal) (ix2 j cc) = x1k (xOf m c) (LOf m c) j cc :=
    fun j cc => E8_v26_apply m c j cc
  have h25 : (E8 m c main_v25 : S1x64.Idx → EReal) (ix2 (0 : Fin 1) d) = biasRow (bOf m c) d :=
    (congrFun (E8_v25 m c) _).trans (V7_v25_biasRow m c 0 d)
  unfold pass2At kerD tk
  simp only [h1, h19, h15, h21, hL, h26, h25]

/-- THE RESULT: the kernel's output array is the specification's kernel-side formula of the arguments. -/
theorem result_eq :
    (W10 m c (main_v29 : DevRef τ sig) : S2x8192x32.Idx → EReal)
      = kerArr (m ((c : Thread nD τ).loc main_arg0)) (m ((c : Thread nD τ).loc main_arg1)) (m ((c : Thread nD τ).loc main_arg2)) (m ((c : Thread nD τ).loc main_arg3)) := by
  funext i
  obtain ⟨n, r, o, rfl⟩ : ∃ (n : Fin 2) (r : Fin 8192) (o : Fin 32), i = ix3 n r o := ⟨i 0, i 1, i 2, ValueIdx.eq_ix3 i⟩
  exact hostTail_kerF (xOf m c) (LOf m c) (wOf m c) (bOf m c) (W9 m c) _ rfl (fun r d => W9_v27_apply m c r d) n r o

end Cert.KernelIdeal.Pass

end
-- ==== Proof.lean ====
/-
  The certificate of the Chebyshev graph-convolution kernel (order 3, dense operator L of 8192 rows, batch of 2, 32 input
  and 32 output features) against its jnp reference, over the extended reals.

  The kernel lays the batch out side by side (64 columns), computes L·x0 in a first row-blocked pass and, in a second one,
      out = x0·(W0 − W2) + (L·x0)·W1 + (L·(L·x0))·(2·W2) + bias
  with the per-tap weights spread block-diagonally over the batch by the host; the reference stacks x0, L·x0 and
  2·L·(L·x0) − x0 and multiplies by the weight matrix once. Over real entries the two agree by distributivity (and the
  zero blocks of the spread weights), and the precondition makes every entry real.

  The three frames: the two kernel programs run through their ten items — host stretches and the two passes — from one named
  valuation of the unscoped buffers to the next, no item writing an argument (modules BRun / IRun, the same text at the word
  level and at the extended reals); the reference has no kernel and its frame is its run. The ideal pass rewrote nothing, so
  the idealization claim is trivial. For the value claim the kernel's run ends with every unscoped buffer at the last
  valuation, whose result entry is the kernel-side formula (KernelResult), and the reference's run ends at its composed term,
  which under the precondition is that same formula (Bridge: the reference read index by index, the law, finiteness).
-/
import proofs.«165797_g43559558316210_cont_sun_m_1389_5_alg».proof.Defs
import proofs.«165797_g43559558316210_cont_sun_m_1389_5_alg».proof.Proof.Gen.Kernel
import proofs.«165797_g43559558316210_cont_sun_m_1389_5_alg».proof.Proof.Gen.KernelIdeal
import proofs.«165797_g43559558316210_cont_sun_m_1389_5_alg».proof.Proof.Gen.ReferenceIdeal
import proofs.«165797_g43559558316210_cont_sun_m_1389_5_alg».proof.Proof.Gen.Pre_finite_inputs
import proofs.«165797_g43559558316210_cont_sun_m_1389_5_alg».proof.Proof.Gen.ReferenceIdeal.Run
import proofs.«165797_g43559558316210_cont_sun_m_1389_5_alg».proof.Proof.Gen.ReferenceIdeal.Read
import proofs.«165797_g43559558316210_cont_sun_m_1389_5_alg».proof.Proof.BRun
import proofs.«165797_g43559558316210_cont_sun_m_1389_5_alg».proof.Proof.IRun
import proofs.«165797_g43559558316210_cont_sun_m_1389_5_alg».proof.Proof.KernelResult
import proofs.«165797_g43559558316210_cont_sun_m_1389_5_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Pass.frame_all m ρ

/-- So does the idealized kernel. -/
theorem frame_kernelIdeal : Cert.frame_KernelIdeal := fun m ρ _ => Cert.KernelIdeal.Pass.frame_all m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the kernel-side formula of the arguments in their result array. -/
theorem algebraic : Cert.algebraic_KernelIdeal_ReferenceIdeal := by
  intro m ρ m' ρ' hpre hagree
  refine ⟨fun c => Cert.Cheb.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Pass.mem_uc Cert.KernelIdeal.main_v29 (by decide))).trans (Cert.KernelIdeal.Pass.result_eq m c),
       (h c _ (Cert.KernelIdeal.Pass.mem_uc Cert.KernelIdeal.main_arg0 (by decide))).trans (Cert.KernelIdeal.Pass.W10_main_arg0 m c),
       (h c _ (Cert.KernelIdeal.Pass.mem_uc Cert.KernelIdeal.main_arg1 (by decide))).trans (Cert.KernelIdeal.Pass.W10_main_arg1 m c),
       (h c _ (Cert.KernelIdeal.Pass.mem_uc Cert.KernelIdeal.main_arg2 (by decide))).trans (Cert.KernelIdeal.Pass.W10_main_arg2 m c),
       (h c _ (Cert.KernelIdeal.Pass.mem_uc Cert.KernelIdeal.main_arg3 (by decide))).trans (Cert.KernelIdeal.Pass.W10_main_arg3 m c)⟩)
      (Cert.KernelIdeal.Pass.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq _ _ _ _).trans (Cert.Cheb.reference_eq_kerArr _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
